-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x32x32 : Shape := ⟨4, ![16, 1024, 32, 32]⟩
abbrev S_ : Shape := ⟨0, ![]⟩

class Facts : Prop where
  bcast_S_S16x1024x32x32 : S_.BroadcastsInDim S16x1024x32x32 (![] : Fin 0 → Fin S16x1024x32x32.rank)
  reducesTo_S16x1024x32x32_S_d0_1_2_3 : S16x1024x32x32.ReducesTo [0, 1, 2, 3] S_
  h_S_ : 0 < S_.numel

variable [Facts]

def fn {F : FTy → Type} [FloatOps F] (main_arg0 : FVec F S16x1024x32x32 .f32) : IVec S_ 1 :=
  let main_v0 : FVec F S16x1024x32x32 .f32 := Host.absf main_arg0
  let main_cst : FVec F S_ .f32 := constant S_ .f32 0x7F800000#32
  let main_v1 : FVec F S16x1024x32x32 .f32 := broadcastInDim S16x1024x32x32 ![] bcast_S_S16x1024x32x32 main_cst
  let main_v2 : IVec S16x1024x32x32 1 := cmpf .olt main_v0 main_v1
  let main_c : IVec S_ 1 := constantI S_ 1 1#1
  let main_v3 : IVec S_ 1 := (fun x v => Host.reduce IntOp.andi x v reducesTo_S16x1024x32x32_S_d0_1_2_3 h_S_) main_v2 main_c
  main_v3
-- ==== Kernel.lean ====
abbrev S16x1024x32x32 : Shape := ⟨4, ![16, 1024, 32, 32]⟩
abbrev S16x32x32x32x32 : Shape := ⟨5, ![16, 32, 32, 32, 32]⟩
abbrev S16x63x63x32x32 : Shape := ⟨5, ![16, 63, 63, 32, 32]⟩
abbrev S1x32x32x32x32 : Shape := ⟨5, ![1, 32, 32, 32, 32]⟩
abbrev S1x63x63x32x32 : Shape := ⟨5, ![1, 63, 63, 32, 32]⟩
abbrev S63x32x32x32 : Shape := ⟨4, ![63, 32, 32, 32]⟩
abbrev S63x63x32x32 : Shape := ⟨4, ![63, 63, 32, 32]⟩
abbrev S1x32x32x1x32 : Shape := ⟨5, ![1, 32, 32, 1, 32]⟩
abbrev S32x32x32 : Shape := ⟨3, ![32, 32, 32]⟩
abbrev S32x32x1x32 : Shape := ⟨4, ![32, 32, 1, 32]⟩
abbrev S63x32x32x1 : Shape := ⟨4, ![63, 32, 32, 1]⟩
abbrev S63x32x32 : Shape := ⟨3, ![63, 32, 32]⟩
abbrev S1x63x32x32x1 : Shape := ⟨5, ![1, 63, 32, 32, 1]⟩
abbrev S16x3969x32x32 : Shape := ⟨4, ![16, 3969, 32, 32]⟩

abbrev nBuf : Space → Nat
  | .hbm => 4
  | .vmem => 5
  | .smem => 0
  | _ => 0

abbrev bufTy : (tb : Table) → Fin (tcTables nBuf tb) → BufTy
  | .hbm, ⟨0, _⟩ => ⟨S16x1024x32x32, .f32⟩
  | .hbm, ⟨1, _⟩ => ⟨S16x32x32x32x32, .f32⟩
  | .hbm, ⟨2, _⟩ => ⟨S16x63x63x32x32, .f32⟩
  | .hbm, ⟨3, _⟩ => ⟨S16x3969x32x32, .f32⟩
  | .local _ .vmem, ⟨0, _⟩ => ⟨S1x32x32x32x32, .f32⟩
  | .local _ .vmem, ⟨1, _⟩ => ⟨S1x32x32x32x32, .f32⟩
  | .local _ .vmem, ⟨2, _⟩ => ⟨S1x63x63x32x32, .f32⟩
  | .local _ .vmem, ⟨3, _⟩ => ⟨S1x63x63x32x32, .f32⟩
  | .local _ .vmem, ⟨4, _⟩ => ⟨S63x32x32x32, .f32⟩
  | _, _ => ⟨S16x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x32x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x63x63x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x1024x32x32_S16x32x32x32x32 : S16x1024x32x32.ShapeCasts S16x32x32x32x32
  inb_S1x63x63x32x32_S1x63x63x32x32_0_0_0_0_0 : ∀ a, (![0, 0, 0, 0, 0] : Fin 5 → Nat) a + S1x63x63x32x32.size a ≤ S1x63x63x32x32.size a
  h_S1x63x63x32x32 : 0 < S1x63x63x32x32.numel
  shapeCasts_S1x63x63x32x32_S63x63x32x32 : S1x63x63x32x32.ShapeCasts S63x63x32x32
  shapeCasts_S63x63x32x32_S1x63x63x32x32 : S63x63x32x32.ShapeCasts S1x63x63x32x32
  inb_S63x32x32x32_S63x32x32x32_0_0_0_0 : ∀ a, (![0, 0, 0, 0] : Fin 4 → Nat) a + S63x32x32x32.size a ≤ S63x32x32x32.size a
  h_S63x32x32x32 : 0 < S63x32x32x32.numel
  shapeCasts_S63x32x32x32_S63x32x32x32 : S63x32x32x32.ShapeCasts S63x32x32x32
  inb_S1x32x32x32x32_S1x32x32x1x32_0_0_0_0_0 : ∀ a, (![0, 0, 0, 0, 0] : Fin 5 → Nat) a + S1x32x32x1x32.size a ≤ S1x32x32x32x32.size a
  h_S1x32x32x1x32 : 0 < S1x32x32x1x32.numel
  shapeCasts_S1x32x32x1x32_S32x32x32 : S1x32x32x1x32.ShapeCasts S32x32x32
  inb_S63x32x32x32_S32x32x1x32_31_0_0_0 : ∀ a, (![31, 0, 0, 0] : Fin 4 → Nat) a + S32x32x1x32.size a ≤ S63x32x32x32.size a
  h_S32x32x1x32 : 0 < S32x32x1x32.numel
  shapeCasts_S32x32x1x32_S32x32x32 : S32x32x1x32.ShapeCasts S32x32x32
  shapeCasts_S32x32x32_S32x32x1x32 : S32x32x32.ShapeCasts S32x32x1x32
  inb_S1x32x32x32x32_S1x32x32x1x32_0_0_0_1_0 : ∀ a, (![0, 0, 0, 1, 0] : Fin 5 → Nat) a + S1x32x32x1x32.size a ≤ S1x32x32x32x32.size a
  inb_S63x32x32x32_S32x32x1x32_30_0_1_0 : ∀ a, (![30, 0, 1, 0] : Fin 4 → Nat) a + S32x32x1x32.size a ≤ S63x32x32x32.size a
  inb_S1x32x32x32x32_S1x32x32x1x32_0_0_0_2_0 : ∀ a, (![0, 0, 0, 2, 0] : Fin 5 → Nat) a + S1x32x32x1x32.size a ≤ S1x32x32x32x32.size a
  inb_S63x32x32x32_S32x32x1x32_29_0_2_0 : ∀ a, (![29, 0, 2, 0] : Fin 4 → Nat) a + S32x32x1x32.size a ≤ S63x32x32x32.size a
  inb_S1x32x32x32x32_S1x32x32x1x32_0_0_0_3_0 : ∀ a, (![0, 0, 0, 3, 0] : Fin 5 → Nat) a + S1x32x32x1x32.size a ≤ S1x32x32x32x32.size a
  inb_S63x32x32x32_S32x32x1x32_28_0_3_0 : ∀ a, (![28, 0, 3, 0] : Fin 4 → Nat) a + S32x32x1x32.size a ≤ S63x32x32x32.size a
  inb_S1x32x32x32x32_S1x32x32x1x32_0_0_0_4_0 : ∀ a, (![0, 0, 0, 4, 0] : Fin 5 → Nat) a + S1x32x32x1x32.size a ≤ S1x32x32x32x32.size a
  inb_S63x32x32x32_S32x32x1x32_27_0_4_0 : ∀ a, (![27, 0, 4, 0] : Fin 4 → Nat) a + S32x32x1x32.size a ≤ S63x32x32x32.size a
  inb_S1x32x32x32x32_S1x32x32x1x32_0_0_0_5_0 : ∀ a, (![0, 0, 0, 5, 0] : Fin 5 → Nat) a + S1x32x32x1x32.size a ≤ S1x32x32x32x32.size a
  inb_S63x32x32x32_S32x32x1x32_26_0_5_0 : ∀ a, (![26, 0, 5, 0] : Fin 4 → Nat) a + S32x32x1x32.size a ≤ S63x32x32x32.size a
  inb_S1x32x32x32x32_S1x32x32x1x32_0_0_0_6_0 : ∀ a, (![0, 0, 0, 6, 0] : Fin 5 → Nat) a + S1x32x32x1x32.size a ≤ S1x32x32x32x32.size a
  inb_S63x32x32x32_S32x32x1x32_25_0_6_0 : ∀ a, (![25, 0, 6, 0] : Fin 4 → Nat) a + S32x32x1x32.size a ≤ S63x32x32x32.size a
  inb_S1x32x32x32x32_S1x32x32x1x32_0_0_0_7_0 : ∀ a, (![0, 0, 0, 7, 0] : Fin 5 → Nat) a + S1x32x32x1x32.size a ≤ S1x32x32x32x32.size a
  inb_S63x32x32x32_S32x32x1x32_24_0_7_0 : ∀ a, (![24, 0, 7, 0] : Fin 4 → Nat) a + S32x32x1x32.size a ≤ S63x32x32x32.size a
  inb_S1x32x32x32x32_S1x32x32x1x32_0_0_0_8_0 : ∀ a, (![0, 0, 0, 8, 0] : Fin 5 → Nat) a + S1x32x32x1x32.size a ≤ S1x32x32x32x32.size a
  inb_S63x32x32x32_S32x32x1x32_23_0_8_0 : ∀ a, (![23, 0, 8, 0] : Fin 4 → Nat) a + S32x32x1x32.size a ≤ S63x32x32x32.size a
  inb_S1x32x32x32x32_S1x32x32x1x32_0_0_0_9_0 : ∀ a, (![0, 0, 0, 9, 0] : Fin 5 → Nat) a + S1x32x32x1x32.size a ≤ S1x32x32x32x32.size a
  inb_S63x32x32x32_S32x32x1x32_22_0_9_0 : ∀ a, (![22, 0, 9, 0] : Fin 4 → Nat) a + S32x32x1x32.size a ≤ S63x32x32x32.size a
  inb_S1x32x32x32x32_S1x32x32x1x32_0_0_0_10_0 : ∀ a, (![0, 0, 0, 10, 0] : Fin 5 → Nat) a + S1x32x32x1x32.size a ≤ S1x32x32x32x32.size a
  inb_S63x32x32x32_S32x32x1x32_21_0_10_0 : ∀ a, (![21, 0, 10, 0] : Fin 4 → Nat) a + S32x32x1x32.size a ≤ S63x32x32x32.size a
  inb_S1x32x32x32x32_S1x32x32x1x32_0_0_0_11_0 : ∀ a, (![0, 0, 0, 11, 0] : Fin 5 → Nat) a + S1x32x32x1x32.size a ≤ S1x32x32x32x32.size a
  inb_S63x32x32x32_S32x32x1x32_20_0_11_0 : ∀ a, (![20, 0, 11, 0] : Fin 4 → Nat) a + S32x32x1x32.size a ≤ S63x32x32x32.size a
  inb_S1x32x32x32x32_S1x32x32x1x32_0_0_0_12_0 : ∀ a, (![0, 0, 0, 12, 0] : Fin 5 → Nat) a + S1x32x32x1x32.size a ≤ S1x32x32x32x32.size a
  inb_S63x32x32x32_S32x32x1x32_19_0_12_0 : ∀ a, (![19, 0, 12, 0] : Fin 4 → Nat) a + S32x32x1x32.size a ≤ S63x32x32x32.size a
  inb_S1x32x32x32x32_S1x32x32x1x32_0_0_0_13_0 : ∀ a, (![0, 0, 0, 13, 0] : Fin 5 → Nat) a + S1x32x32x1x32.size a ≤ S1x32x32x32x32.size a
  inb_S63x32x32x32_S32x32x1x32_18_0_13_0 : ∀ a, (![18, 0, 13, 0] : Fin 4 → Nat) a + S32x32x1x32.size a ≤ S63x32x32x32.size a
  inb_S1x32x32x32x32_S1x32x32x1x32_0_0_0_14_0 : ∀ a, (![0, 0, 0, 14, 0] : Fin 5 → Nat) a + S1x32x32x1x32.size a ≤ S1x32x32x32x32.size a
  inb_S63x32x32x32_S32x32x1x32_17_0_14_0 : ∀ a, (![17, 0, 14, 0] : Fin 4 → Nat) a + S32x32x1x32.size a ≤ S63x32x32x32.size a
  inb_S1x32x32x32x32_S1x32x32x1x32_0_0_0_15_0 : ∀ a, (![0, 0, 0, 15, 0] : Fin 5 → Nat) a + S1x32x32x1x32.size a ≤ S1x32x32x32x32.size a
  inb_S63x32x32x32_S32x32x1x32_16_0_15_0 : ∀ a, (![16, 0, 15, 0] : Fin 4 → Nat) a + S32x32x1x32.size a ≤ S63x32x32x32.size a
  inb_S1x32x32x32x32_S1x32x32x1x32_0_0_0_16_0 : ∀ a, (![0, 0, 0, 16, 0] : Fin 5 → Nat) a + S1x32x32x1x32.size a ≤ S1x32x32x32x32.size a
  inb_S63x32x32x32_S32x32x1x32_15_0_16_0 : ∀ a, (![15, 0, 16, 0] : Fin 4 → Nat) a + S32x32x1x32.size a ≤ S63x32x32x32.size a
  inb_S1x32x32x32x32_S1x32x32x1x32_0_0_0_17_0 : ∀ a, (![0, 0, 0, 17, 0] : Fin 5 → Nat) a + S1x32x32x1x32.size a ≤ S1x32x32x32x32.size a
  inb_S63x32x32x32_S32x32x1x32_14_0_17_0 : ∀ a, (![14, 0, 17, 0] : Fin 4 → Nat) a + S32x32x1x32.size a ≤ S63x32x32x32.size a
  inb_S1x32x32x32x32_S1x32x32x1x32_0_0_0_18_0 : ∀ a, (![0, 0, 0, 18, 0] : Fin 5 → Nat) a + S1x32x32x1x32.size a ≤ S1x32x32x32x32.size a
  inb_S63x32x32x32_S32x32x1x32_13_0_18_0 : ∀ a, (![13, 0, 18, 0] : Fin 4 → Nat) a + S32x32x1x32.size a ≤ S63x32x32x32.size a
  inb_S1x32x32x32x32_S1x32x32x1x32_0_0_0_19_0 : ∀ a, (![0, 0, 0, 19, 0] : Fin 5 → Nat) a + S1x32x32x1x32.size a ≤ S1x32x32x32x32.size a
  inb_S63x32x32x32_S32x32x1x32_12_0_19_0 : ∀ a, (![12, 0, 19, 0] : Fin 4 → Nat) a + S32x32x1x32.size a ≤ S63x32x32x32.size a
  inb_S1x32x32x32x32_S1x32x32x1x32_0_0_0_20_0 : ∀ a, (![0, 0, 0, 20, 0] : Fin 5 → Nat) a + S1x32x32x1x32.size a ≤ S1x32x32x32x32.size a
  inb_S63x32x32x32_S32x32x1x32_11_0_20_0 : ∀ a, (![11, 0, 20, 0] : Fin 4 → Nat) a + S32x32x1x32.size a ≤ S63x32x32x32.size a
  inb_S1x32x32x32x32_S1x32x32x1x32_0_0_0_21_0 : ∀ a, (![0, 0, 0, 21, 0] : Fin 5 → Nat) a + S1x32x32x1x32.size a ≤ S1x32x32x32x32.size a
  inb_S63x32x32x32_S32x32x1x32_10_0_21_0 : ∀ a, (![10, 0, 21, 0] : Fin 4 → Nat) a + S32x32x1x32.size a ≤ S63x32x32x32.size a
  inb_S1x32x32x32x32_S1x32x32x1x32_0_0_0_22_0 : ∀ a, (![0, 0, 0, 22, 0] : Fin 5 → Nat) a + S1x32x32x1x32.size a ≤ S1x32x32x32x32.size a
  inb_S63x32x32x32_S32x32x1x32_9_0_22_0 : ∀ a, (![9, 0, 22, 0] : Fin 4 → Nat) a + S32x32x1x32.size a ≤ S63x32x32x32.size a
  inb_S1x32x32x32x32_S1x32x32x1x32_0_0_0_23_0 : ∀ a, (![0, 0, 0, 23, 0] : Fin 5 → Nat) a + S1x32x32x1x32.size a ≤ S1x32x32x32x32.size a
  inb_S63x32x32x32_S32x32x1x32_8_0_23_0 : ∀ a, (![8, 0, 23, 0] : Fin 4 → Nat) a + S32x32x1x32.size a ≤ S63x32x32x32.size a
  inb_S1x32x32x32x32_S1x32x32x1x32_0_0_0_24_0 : ∀ a, (![0, 0, 0, 24, 0] : Fin 5 → Nat) a + S1x32x32x1x32.size a ≤ S1x32x32x32x32.size a
  inb_S63x32x32x32_S32x32x1x32_7_0_24_0 : ∀ a, (![7, 0, 24, 0] : Fin 4 → Nat) a + S32x32x1x32.size a ≤ S63x32x32x32.size a
  inb_S1x32x32x32x32_S1x32x32x1x32_0_0_0_25_0 : ∀ a, (![0, 0, 0, 25, 0] : Fin 5 → Nat) a + S1x32x32x1x32.size a ≤ S1x32x32x32x32.size a
  inb_S63x32x32x32_S32x32x1x32_6_0_25_0 : ∀ a, (![6, 0, 25, 0] : Fin 4 → Nat) a + S32x32x1x32.size a ≤ S63x32x32x32.size a
  inb_S1x32x32x32x32_S1x32x32x1x32_0_0_0_26_0 : ∀ a, (![0, 0, 0, 26, 0] : Fin 5 → Nat) a + S1x32x32x1x32.size a ≤ S1x32x32x32x32.size a
  inb_S63x32x32x32_S32x32x1x32_5_0_26_0 : ∀ a, (![5, 0, 26, 0] : Fin 4 → Nat) a + S32x32x1x32.size a ≤ S63x32x32x32.size a
  inb_S1x32x32x32x32_S1x32x32x1x32_0_0_0_27_0 : ∀ a, (![0, 0, 0, 27, 0] : Fin 5 → Nat) a + S1x32x32x1x32.size a ≤ S1x32x32x32x32.size a
  inb_S63x32x32x32_S32x32x1x32_4_0_27_0 : ∀ a, (![4, 0, 27, 0] : Fin 4 → Nat) a + S32x32x1x32.size a ≤ S63x32x32x32.size a
  inb_S1x32x32x32x32_S1x32x32x1x32_0_0_0_28_0 : ∀ a, (![0, 0, 0, 28, 0] : Fin 5 → Nat) a + S1x32x32x1x32.size a ≤ S1x32x32x32x32.size a
  inb_S63x32x32x32_S32x32x1x32_3_0_28_0 : ∀ a, (![3, 0, 28, 0] : Fin 4 → Nat) a + S32x32x1x32.size a ≤ S63x32x32x32.size a
  inb_S1x32x32x32x32_S1x32x32x1x32_0_0_0_29_0 : ∀ a, (![0, 0, 0, 29, 0] : Fin 5 → Nat) a + S1x32x32x1x32.size a ≤ S1x32x32x32x32.size a
  inb_S63x32x32x32_S32x32x1x32_2_0_29_0 : ∀ a, (![2, 0, 29, 0] : Fin 4 → Nat) a + S32x32x1x32.size a ≤ S63x32x32x32.size a
  inb_S1x32x32x32x32_S1x32x32x1x32_0_0_0_30_0 : ∀ a, (![0, 0, 0, 30, 0] : Fin 5 → Nat) a + S1x32x32x1x32.size a ≤ S1x32x32x32x32.size a
  inb_S63x32x32x32_S32x32x1x32_1_0_30_0 : ∀ a, (![1, 0, 30, 0] : Fin 4 → Nat) a + S32x32x1x32.size a ≤ S63x32x32x32.size a
  inb_S1x32x32x32x32_S1x32x32x1x32_0_0_0_31_0 : ∀ a, (![0, 0, 0, 31, 0] : Fin 5 → Nat) a + S1x32x32x1x32.size a ≤ S1x32x32x32x32.size a
  inb_S63x32x32x32_S32x32x1x32_0_0_31_0 : ∀ a, (![0, 0, 31, 0] : Fin 4 → Nat) a + S32x32x1x32.size a ≤ S63x32x32x32.size a
  inb_S63x32x32x32_S63x32x32x1_0_0_0_0 : ∀ a, (![0, 0, 0, 0] : Fin 4 → Nat) a + S63x32x32x1.size a ≤ S63x32x32x32.size a
  h_S63x32x32x1 : 0 < S63x32x32x1.numel
  shapeCasts_S63x32x32x1_S63x32x32 : S63x32x32x1.ShapeCasts S63x32x32
  inb_S1x63x63x32x32_S1x63x32x32x1_0_0_31_0_0 : ∀ a, (![0, 0, 31, 0, 0] : Fin 5 → Nat) a + S1x63x32x32x1.size a ≤ S1x63x63x32x32.size a
  h_S1x63x32x32x1 : 0 < S1x63x32x32x1.numel
  shapeCasts_S1x63x32x32x1_S63x32x32 : S1x63x32x32x1.ShapeCasts S63x32x32
  shapeCasts_S63x32x32_S1x63x32x32x1 : S63x32x32.ShapeCasts S1x63x32x32x1
  inb_S63x32x32x32_S63x32x32x1_0_0_0_1 : ∀ a, (![0, 0, 0, 1] : Fin 4 → Nat) a + S63x32x32x1.size a ≤ S63x32x32x32.size a
  inb_S1x63x63x32x32_S1x63x32x32x1_0_0_30_0_1 : ∀ a, (![0, 0, 30, 0, 1] : Fin 5 → Nat) a + S1x63x32x32x1.size a ≤ S1x63x63x32x32.size a
  inb_S63x32x32x32_S63x32x32x1_0_0_0_2 : ∀ a, (![0, 0, 0, 2] : Fin 4 → Nat) a + S63x32x32x1.size a ≤ S63x32x32x32.size a
  inb_S1x63x63x32x32_S1x63x32x32x1_0_0_29_0_2 : ∀ a, (![0, 0, 29, 0, 2] : Fin 5 → Nat) a + S1x63x32x32x1.size a ≤ S1x63x63x32x32.size a
  inb_S63x32x32x32_S63x32x32x1_0_0_0_3 : ∀ a, (![0, 0, 0, 3] : Fin 4 → Nat) a + S63x32x32x1.size a ≤ S63x32x32x32.size a
  inb_S1x63x63x32x32_S1x63x32x32x1_0_0_28_0_3 : ∀ a, (![0, 0, 28, 0, 3] : Fin 5 → Nat) a + S1x63x32x32x1.size a ≤ S1x63x63x32x32.size a
  inb_S63x32x32x32_S63x32x32x1_0_0_0_4 : ∀ a, (![0, 0, 0, 4] : Fin 4 → Nat) a + S63x32x32x1.size a ≤ S63x32x32x32.size a
  inb_S1x63x63x32x32_S1x63x32x32x1_0_0_27_0_4 : ∀ a, (![0, 0, 27, 0, 4] : Fin 5 → Nat) a + S1x63x32x32x1.size a ≤ S1x63x63x32x32.size a
  inb_S63x32x32x32_S63x32x32x1_0_0_0_5 : ∀ a, (![0, 0, 0, 5] : Fin 4 → Nat) a + S63x32x32x1.size a ≤ S63x32x32x32.size a
  inb_S1x63x63x32x32_S1x63x32x32x1_0_0_26_0_5 : ∀ a, (![0, 0, 26, 0, 5] : Fin 5 → Nat) a + S1x63x32x32x1.size a ≤ S1x63x63x32x32.size a
  inb_S63x32x32x32_S63x32x32x1_0_0_0_6 : ∀ a, (![0, 0, 0, 6] : Fin 4 → Nat) a + S63x32x32x1.size a ≤ S63x32x32x32.size a
  inb_S1x63x63x32x32_S1x63x32x32x1_0_0_25_0_6 : ∀ a, (![0, 0, 25, 0, 6] : Fin 5 → Nat) a + S1x63x32x32x1.size a ≤ S1x63x63x32x32.size a
  inb_S63x32x32x32_S63x32x32x1_0_0_0_7 : ∀ a, (![0, 0, 0, 7] : Fin 4 → Nat) a + S63x32x32x1.size a ≤ S63x32x32x32.size a
  inb_S1x63x63x32x32_S1x63x32x32x1_0_0_24_0_7 : ∀ a, (![0, 0, 24, 0, 7] : Fin 5 → Nat) a + S1x63x32x32x1.size a ≤ S1x63x63x32x32.size a
  inb_S63x32x32x32_S63x32x32x1_0_0_0_8 : ∀ a, (![0, 0, 0, 8] : Fin 4 → Nat) a + S63x32x32x1.size a ≤ S63x32x32x32.size a
  inb_S1x63x63x32x32_S1x63x32x32x1_0_0_23_0_8 : ∀ a, (![0, 0, 23, 0, 8] : Fin 5 → Nat) a + S1x63x32x32x1.size a ≤ S1x63x63x32x32.size a
  inb_S63x32x32x32_S63x32x32x1_0_0_0_9 : ∀ a, (![0, 0, 0, 9] : Fin 4 → Nat) a + S63x32x32x1.size a ≤ S63x32x32x32.size a
  inb_S1x63x63x32x32_S1x63x32x32x1_0_0_22_0_9 : ∀ a, (![0, 0, 22, 0, 9] : Fin 5 → Nat) a + S1x63x32x32x1.size a ≤ S1x63x63x32x32.size a
  inb_S63x32x32x32_S63x32x32x1_0_0_0_10 : ∀ a, (![0, 0, 0, 10] : Fin 4 → Nat) a + S63x32x32x1.size a ≤ S63x32x32x32.size a
  inb_S1x63x63x32x32_S1x63x32x32x1_0_0_21_0_10 : ∀ a, (![0, 0, 21, 0, 10] : Fin 5 → Nat) a + S1x63x32x32x1.size a ≤ S1x63x63x32x32.size a
  inb_S63x32x32x32_S63x32x32x1_0_0_0_11 : ∀ a, (![0, 0, 0, 11] : Fin 4 → Nat) a + S63x32x32x1.size a ≤ S63x32x32x32.size a
  inb_S1x63x63x32x32_S1x63x32x32x1_0_0_20_0_11 : ∀ a, (![0, 0, 20, 0, 11] : Fin 5 → Nat) a + S1x63x32x32x1.size a ≤ S1x63x63x32x32.size a
  inb_S63x32x32x32_S63x32x32x1_0_0_0_12 : ∀ a, (![0, 0, 0, 12] : Fin 4 → Nat) a + S63x32x32x1.size a ≤ S63x32x32x32.size a
  inb_S1x63x63x32x32_S1x63x32x32x1_0_0_19_0_12 : ∀ a, (![0, 0, 19, 0, 12] : Fin 5 → Nat) a + S1x63x32x32x1.size a ≤ S1x63x63x32x32.size a
  inb_S63x32x32x32_S63x32x32x1_0_0_0_13 : ∀ a, (![0, 0, 0, 13] : Fin 4 → Nat) a + S63x32x32x1.size a ≤ S63x32x32x32.size a
  inb_S1x63x63x32x32_S1x63x32x32x1_0_0_18_0_13 : ∀ a, (![0, 0, 18, 0, 13] : Fin 5 → Nat) a + S1x63x32x32x1.size a ≤ S1x63x63x32x32.size a
  inb_S63x32x32x32_S63x32x32x1_0_0_0_14 : ∀ a, (![0, 0, 0, 14] : Fin 4 → Nat) a + S63x32x32x1.size a ≤ S63x32x32x32.size a
  inb_S1x63x63x32x32_S1x63x32x32x1_0_0_17_0_14 : ∀ a, (![0, 0, 17, 0, 14] : Fin 5 → Nat) a + S1x63x32x32x1.size a ≤ S1x63x63x32x32.size a
  inb_S63x32x32x32_S63x32x32x1_0_0_0_15 : ∀ a, (![0, 0, 0, 15] : Fin 4 → Nat) a + S63x32x32x1.size a ≤ S63x32x32x32.size a
  inb_S1x63x63x32x32_S1x63x32x32x1_0_0_16_0_15 : ∀ a, (![0, 0, 16, 0, 15] : Fin 5 → Nat) a + S1x63x32x32x1.size a ≤ S1x63x63x32x32.size a
  inb_S63x32x32x32_S63x32x32x1_0_0_0_16 : ∀ a, (![0, 0, 0, 16] : Fin 4 → Nat) a + S63x32x32x1.size a ≤ S63x32x32x32.size a
  inb_S1x63x63x32x32_S1x63x32x32x1_0_0_15_0_16 : ∀ a, (![0, 0, 15, 0, 16] : Fin 5 → Nat) a + S1x63x32x32x1.size a ≤ S1x63x63x32x32.size a
  inb_S63x32x32x32_S63x32x32x1_0_0_0_17 : ∀ a, (![0, 0, 0, 17] : Fin 4 → Nat) a + S63x32x32x1.size a ≤ S63x32x32x32.size a
  inb_S1x63x63x32x32_S1x63x32x32x1_0_0_14_0_17 : ∀ a, (![0, 0, 14, 0, 17] : Fin 5 → Nat) a + S1x63x32x32x1.size a ≤ S1x63x63x32x32.size a
  inb_S63x32x32x32_S63x32x32x1_0_0_0_18 : ∀ a, (![0, 0, 0, 18] : Fin 4 → Nat) a + S63x32x32x1.size a ≤ S63x32x32x32.size a
  inb_S1x63x63x32x32_S1x63x32x32x1_0_0_13_0_18 : ∀ a, (![0, 0, 13, 0, 18] : Fin 5 → Nat) a + S1x63x32x32x1.size a ≤ S1x63x63x32x32.size a
  inb_S63x32x32x32_S63x32x32x1_0_0_0_19 : ∀ a, (![0, 0, 0, 19] : Fin 4 → Nat) a + S63x32x32x1.size a ≤ S63x32x32x32.size a
  inb_S1x63x63x32x32_S1x63x32x32x1_0_0_12_0_19 : ∀ a, (![0, 0, 12, 0, 19] : Fin 5 → Nat) a + S1x63x32x32x1.size a ≤ S1x63x63x32x32.size a
  inb_S63x32x32x32_S63x32x32x1_0_0_0_20 : ∀ a, (![0, 0, 0, 20] : Fin 4 → Nat) a + S63x32x32x1.size a ≤ S63x32x32x32.size a
  inb_S1x63x63x32x32_S1x63x32x32x1_0_0_11_0_20 : ∀ a, (![0, 0, 11, 0, 20] : Fin 5 → Nat) a + S1x63x32x32x1.size a ≤ S1x63x63x32x32.size a
  inb_S63x32x32x32_S63x32x32x1_0_0_0_21 : ∀ a, (![0, 0, 0, 21] : Fin 4 → Nat) a + S63x32x32x1.size a ≤ S63x32x32x32.size a
  inb_S1x63x63x32x32_S1x63x32x32x1_0_0_10_0_21 : ∀ a, (![0, 0, 10, 0, 21] : Fin 5 → Nat) a + S1x63x32x32x1.size a ≤ S1x63x63x32x32.size a
  inb_S63x32x32x32_S63x32x32x1_0_0_0_22 : ∀ a, (![0, 0, 0, 22] : Fin 4 → Nat) a + S63x32x32x1.size a ≤ S63x32x32x32.size a
  inb_S1x63x63x32x32_S1x63x32x32x1_0_0_9_0_22 : ∀ a, (![0, 0, 9, 0, 22] : Fin 5 → Nat) a + S1x63x32x32x1.size a ≤ S1x63x63x32x32.size a
  inb_S63x32x32x32_S63x32x32x1_0_0_0_23 : ∀ a, (![0, 0, 0, 23] : Fin 4 → Nat) a + S63x32x32x1.size a ≤ S63x32x32x32.size a
  inb_S1x63x63x32x32_S1x63x32x32x1_0_0_8_0_23 : ∀ a, (![0, 0, 8, 0, 23] : Fin 5 → Nat) a + S1x63x32x32x1.size a ≤ S1x63x63x32x32.size a
  inb_S63x32x32x32_S63x32x32x1_0_0_0_24 : ∀ a, (![0, 0, 0, 24] : Fin 4 → Nat) a + S63x32x32x1.size a ≤ S63x32x32x32.size a
  inb_S1x63x63x32x32_S1x63x32x32x1_0_0_7_0_24 : ∀ a, (![0, 0, 7, 0, 24] : Fin 5 → Nat) a + S1x63x32x32x1.size a ≤ S1x63x63x32x32.size a
  inb_S63x32x32x32_S63x32x32x1_0_0_0_25 : ∀ a, (![0, 0, 0, 25] : Fin 4 → Nat) a + S63x32x32x1.size a ≤ S63x32x32x32.size a
  inb_S1x63x63x32x32_S1x63x32x32x1_0_0_6_0_25 : ∀ a, (![0, 0, 6, 0, 25] : Fin 5 → Nat) a + S1x63x32x32x1.size a ≤ S1x63x63x32x32.size a
  inb_S63x32x32x32_S63x32x32x1_0_0_0_26 : ∀ a, (![0, 0, 0, 26] : Fin 4 → Nat) a + S63x32x32x1.size a ≤ S63x32x32x32.size a
  inb_S1x63x63x32x32_S1x63x32x32x1_0_0_5_0_26 : ∀ a, (![0, 0, 5, 0, 26] : Fin 5 → Nat) a + S1x63x32x32x1.size a ≤ S1x63x63x32x32.size a
  inb_S63x32x32x32_S63x32x32x1_0_0_0_27 : ∀ a, (![0, 0, 0, 27] : Fin 4 → Nat) a + S63x32x32x1.size a ≤ S63x32x32x32.size a
  inb_S1x63x63x32x32_S1x63x32x32x1_0_0_4_0_27 : ∀ a, (![0, 0, 4, 0, 27] : Fin 5 → Nat) a + S1x63x32x32x1.size a ≤ S1x63x63x32x32.size a
  inb_S63x32x32x32_S63x32x32x1_0_0_0_28 : ∀ a, (![0, 0, 0, 28] : Fin 4 → Nat) a + S63x32x32x1.size a ≤ S63x32x32x32.size a
  inb_S1x63x63x32x32_S1x63x32x32x1_0_0_3_0_28 : ∀ a, (![0, 0, 3, 0, 28] : Fin 5 → Nat) a + S1x63x32x32x1.size a ≤ S1x63x63x32x32.size a
  inb_S63x32x32x32_S63x32x32x1_0_0_0_29 : ∀ a, (![0, 0, 0, 29] : Fin 4 → Nat) a + S63x32x32x1.size a ≤ S63x32x32x32.size a
  inb_S1x63x63x32x32_S1x63x32x32x1_0_0_2_0_29 : ∀ a, (![0, 0, 2, 0, 29] : Fin 5 → Nat) a + S1x63x32x32x1.size a ≤ S1x63x63x32x32.size a
  inb_S63x32x32x32_S63x32x32x1_0_0_0_30 : ∀ a, (![0, 0, 0, 30] : Fin 4 → Nat) a + S63x32x32x1.size a ≤ S63x32x32x32.size a
  inb_S1x63x63x32x32_S1x63x32x32x1_0_0_1_0_30 : ∀ a, (![0, 0, 1, 0, 30] : Fin 5 → Nat) a + S1x63x32x32x1.size a ≤ S1x63x63x32x32.size a
  inb_S63x32x32x32_S63x32x32x1_0_0_0_31 : ∀ a, (![0, 0, 0, 31] : Fin 4 → Nat) a + S63x32x32x1.size a ≤ S63x32x32x32.size a
  inb_S1x63x63x32x32_S1x63x32x32x1_0_0_0_0_31 : ∀ a, (![0, 0, 0, 0, 31] : Fin 5 → Nat) a + S1x63x32x32x1.size a ≤ S1x63x63x32x32.size a
  shapeCasts_S16x63x63x32x32_S16x3969x32x32 : S16x63x63x32x32.ShapeCasts S16x3969x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x32x32.size a ≤ S16x32x32x32x32.size a
  hwx0_0 : ∀ i : grid0.Coords, EltTy.bits .f32 = 32 ∨ (Rect.block (s := S16x32x32x32x32) S1x32x32x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x63x63x32x32.size a ≤ S16x63x63x32x32.size a
  hwx0_1 : ∀ i : grid0.Coords, EltTy.bits .f32 = 32 ∨ (Rect.block (s := S16x63x63x32x32) S1x63x63x32x32.size (cc0_transform_1 i) (hinb0_1 i)).WholeWords (EltTy.packing .f32)

variable [Facts₀]

abbrev win0_0 : Pipeline.Window sig grid0 :=
  Pipeline.Window.ofSpec (Memref.whole main_v0) S1x32x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x63x63x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x32x32 : Shape := ⟨4, ![16, 1024, 32, 32]⟩
abbrev S16x32x32x32x32 : Shape := ⟨5, ![16, 32, 32, 32, 32]⟩
abbrev S63 : Shape := ⟨1, ![63]⟩
abbrev S63x1 : Shape := ⟨2, ![63, 1]⟩
abbrev S32 : Shape := ⟨1, ![32]⟩
abbrev S1x32 : Shape := ⟨2, ![1, 32]⟩
abbrev S_ : Shape := ⟨0, ![]⟩
abbrev S63x32 : Shape := ⟨2, ![63, 32]⟩
abbrev S63x1x32x1 : Shape := ⟨4, ![63, 1, 32, 1]⟩
abbrev S1x63x1x32 : Shape := ⟨4, ![1, 63, 1, 32]⟩
abbrev S1x1x32x1 : Shape := ⟨4, ![1, 1, 32, 1]⟩
abbrev S1x1x1x32 : Shape := ⟨4, ![1, 1, 1, 32]⟩
abbrev S63x63x32x32 : Shape := ⟨4, ![63, 63, 32, 32]⟩
abbrev S63x63x32x32x1 : Shape := ⟨5, ![63, 63, 32, 32, 1]⟩
abbrev S63x63x32x32x4 : Shape := ⟨5, ![63, 63, 32, 32, 4]⟩
abbrev S16x63x63x32x32 : Shape := ⟨5, ![16, 63, 63, 32, 32]⟩
abbrev S1x63x63x32x32 : Shape := ⟨5, ![1, 63, 63, 32, 32]⟩
abbrev S16x3969x32x32 : Shape := ⟨4, ![16, 3969, 32, 32]⟩

abbrev nBuf : Space → Nat
  | .hbm => 107
  | .vmem => 0
  | .smem => 0
  | _ => 0

abbrev bufTy : (tb : Table) → Fin (tcTables nBuf tb) → BufTy
  | .hbm, ⟨0, _⟩ => ⟨S16x1024x32x32, .f32⟩
  | .hbm, ⟨1, _⟩ => ⟨S16x32x32x32x32, .f32⟩
  | .hbm, ⟨2, _⟩ => ⟨S63, .i32⟩
  | .hbm, ⟨3, _⟩ => ⟨S63x1, .i32⟩
  | .hbm, ⟨4, _⟩ => ⟨S32, .i32⟩
  | .hbm, ⟨5, _⟩ => ⟨S1x32, .i32⟩
  | .hbm, ⟨6, _⟩ => ⟨S_, .i32⟩
  | .hbm, ⟨7, _⟩ => ⟨S63x1, .i32⟩
  | .hbm, ⟨8, _⟩ => ⟨S63x1, .i32⟩
  | .hbm, ⟨9, _⟩ => ⟨S63x32, .i32⟩
  | .hbm, ⟨10, _⟩ => ⟨S63x32, .i32⟩
  | .hbm, ⟨11, _⟩ => ⟨S63x32, .i32⟩
  | .hbm, ⟨12, _⟩ => ⟨S_, .i32⟩
  | .hbm, ⟨13, _⟩ => ⟨S63x32, .i32⟩
  | .hbm, ⟨14, _⟩ => ⟨S63x32, .i1⟩
  | .hbm, ⟨15, _⟩ => ⟨S_, .i32⟩
  | .hbm, ⟨16, _⟩ => ⟨S63x32, .i32⟩
  | .hbm, ⟨17, _⟩ => ⟨S63x32, .i1⟩
  | .hbm, ⟨18, _⟩ => ⟨S63x32, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S63x32, .i32⟩
  | .hbm, ⟨23, _⟩ => ⟨S63x32, .i32⟩
  | .hbm, ⟨24, _⟩ => ⟨S_, .i32⟩
  | .hbm, ⟨25, _⟩ => ⟨S63x32, .i32⟩
  | .hbm, ⟨26, _⟩ => ⟨S63x32, .i32⟩
  | .hbm, ⟨27, _⟩ => ⟨S63, .i32⟩
  | .hbm, ⟨28, _⟩ => ⟨S63x1, .i32⟩
  | .hbm, ⟨29, _⟩ => ⟨S32, .i32⟩
  | .hbm, ⟨30, _⟩ => ⟨S1x32, .i32⟩
  | .hbm, ⟨31, _⟩ => ⟨S_, .i32⟩
  | .hbm, ⟨32, _⟩ => ⟨S63x1, .i32⟩
  | .hbm, ⟨33, _⟩ => ⟨S63x1, .i32⟩
  | .hbm, ⟨34, _⟩ => ⟨S63x32, .i32⟩
  | .hbm, ⟨35, _⟩ => ⟨S63x32, .i32⟩
  | .hbm, ⟨36, _⟩ => ⟨S63x32, .i32⟩
  | .hbm, ⟨37, _⟩ => ⟨S_, .i32⟩
  | .hbm, ⟨38, _⟩ => ⟨S63x32, .i32⟩
  | .hbm, ⟨39, _⟩ => ⟨S63x32, .i1⟩
  | .hbm, ⟨40, _⟩ => ⟨S_, .i32⟩
  | .hbm, ⟨41, _⟩ => ⟨S63x32, .i32⟩
  | .hbm, ⟨42, _⟩ => ⟨S63x32, .i1⟩
  | .hbm, ⟨43, _⟩ => ⟨S63x32, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S63x32, .i32⟩
  | .hbm, ⟨48, _⟩ => ⟨S63x32, .i32⟩
  | .hbm, ⟨49, _⟩ => ⟨S_, .i32⟩
  | .hbm, ⟨50, _⟩ => ⟨S63x32, .i32⟩
  | .hbm, ⟨51, _⟩ => ⟨S63x32, .i32⟩
  | .hbm, ⟨52, _⟩ => ⟨S63x1x32x1, .i32⟩
  | .hbm, ⟨53, _⟩ => ⟨S1x63x1x32, .i32⟩
  | .hbm, ⟨54, _⟩ => ⟨S32, .i32⟩
  | .hbm, ⟨55, _⟩ => ⟨S1x1x32x1, .i32⟩
  | .hbm, ⟨56, _⟩ => ⟨S32, .i32⟩
  | .hbm, ⟨57, _⟩ => ⟨S1x1x1x32, .i32⟩
  | .hbm, ⟨58, _⟩ => ⟨S_, .i32⟩
  | .hbm, ⟨59, _⟩ => ⟨S63x1x32x1, .i32⟩
  | .hbm, ⟨60, _⟩ => ⟨S63x1x32x1, .i1⟩
  | .hbm, ⟨61, _⟩ => ⟨S_, .i32⟩
  | .hbm, ⟨62, _⟩ => ⟨S63x1x32x1, .i32⟩
  | .hbm, ⟨63, _⟩ => ⟨S63x1x32x1, .i32⟩
  | .hbm, ⟨64, _⟩ => ⟨S63x1x32x1, .i32⟩
  | .hbm, ⟨65, _⟩ => ⟨S_, .i32⟩
  | .hbm, ⟨66, _⟩ => ⟨S1x63x1x32, .i32⟩
  | .hbm, ⟨67, _⟩ => ⟨S1x63x1x32, .i1⟩
  | .hbm, ⟨68, _⟩ => ⟨S_, .i32⟩
  | .hbm, ⟨69, _⟩ => ⟨S1x63x1x32, .i32⟩
  | .hbm, ⟨70, _⟩ => ⟨S1x63x1x32, .i32⟩
  | .hbm, ⟨71, _⟩ => ⟨S1x63x1x32, .i32⟩
  | .hbm, ⟨72, _⟩ => ⟨S_, .i32⟩
  | .hbm, ⟨73, _⟩ => ⟨S1x1x32x1, .i32⟩
  | .hbm, ⟨74, _⟩ => ⟨S1x1x32x1, .i1⟩
  | .hbm, ⟨75, _⟩ => ⟨S_, .i32⟩
  | .hbm, ⟨76, _⟩ => ⟨S1x1x32x1, .i32⟩
  | .hbm, ⟨77, _⟩ => ⟨S1x1x32x1, .i32⟩
  | .hbm, ⟨78, _⟩ => ⟨S1x1x32x1, .i32⟩
  | .hbm, ⟨79, _⟩ => ⟨S_, .i32⟩
  | .hbm, ⟨80, _⟩ => ⟨S1x1x1x32, .i32⟩
  | .hbm, ⟨81, _⟩ => ⟨S1x1x1x32, .i1⟩
  | .hbm, ⟨82, _⟩ => ⟨S_, .i32⟩
  | .hbm, ⟨83, _⟩ => ⟨S1x1x1x32, .i32⟩
  | .hbm, ⟨84, _⟩ => ⟨S1x1x1x32, .i32⟩
  | .hbm, ⟨85, _⟩ => ⟨S1x1x1x32, .i32⟩
  | .hbm, ⟨86, _⟩ => ⟨S63x63x32x32, .i32⟩
  | .hbm, ⟨87, _⟩ => ⟨S63x63x32x32, .i32⟩
  | .hbm, ⟨88, _⟩ => ⟨S63x63x32x32, .i32⟩
  | .hbm, ⟨89, _⟩ => ⟨S63x63x32x32, .i32⟩
  | .hbm, ⟨90, _⟩ => ⟨S63x63x32x32x1, .i32⟩
  | .hbm, ⟨91, _⟩ => ⟨S63x63x32x32x1, .i32⟩
  | .hbm, ⟨92, _⟩ => ⟨S63x63x32x32x1, .i32⟩
  | .hbm, ⟨93, _⟩ => ⟨S63x63x32x32x1, .i32⟩
  | .hbm, ⟨94, _⟩ => ⟨S63x63x32x32x4, .i32⟩
  | .hbm, ⟨95, _⟩ => ⟨S16x63x63x32x32, .f32⟩
  | .hbm, ⟨96, _⟩ => ⟨S63x1x32x1, .i1⟩
  | .hbm, ⟨97, _⟩ => ⟨S1x63x1x32, .i1⟩
  | .hbm, ⟨98, _⟩ => ⟨S63x63x32x32, .i1⟩
  | .hbm, ⟨99, _⟩ => ⟨S63x63x32x32, .i1⟩
  | .hbm, ⟨100, _⟩ => ⟨S63x63x32x32, .i1⟩
  | .hbm, ⟨101, _⟩ => ⟨S1x63x63x32x32, .i1⟩
  | .hbm, ⟨102, _⟩ => ⟨S_, .f32⟩
  | .hbm, ⟨103, _⟩ => ⟨S16x63x63x32x32, .i1⟩
  | .hbm, ⟨104, _⟩ => ⟨S16x63x63x32x32, .f32⟩
  | .hbm, ⟨105, _⟩ => ⟨S16x63x63x32x32, .f32⟩
  | .hbm, ⟨106, _⟩ => ⟨S16x3969x32x32, .f32⟩
  | _, _ => ⟨S16x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_c_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_15 : Ref sig .tc := ⟨.hbm, 79, rfl⟩
abbrev main_v52 : Ref sig .tc := ⟨.hbm, 80, rfl⟩
abbrev main_v53 : Ref sig .tc := ⟨.hbm, 81, rfl⟩
abbrev main_c_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst : Ref sig .tc := ⟨.hbm, 102, rfl⟩
abbrev main_call2_v0 : Ref sig .tc := ⟨.hbm, 103, rfl⟩
abbrev main_call2_v1 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  shapeCasts_S16x1024x32x32_S16x32x32x32x32 : S16x1024x32x32.ShapeCasts S16x32x32x32x32
  bcast_S63_S63x1_0 : S63.BroadcastsInDim S63x1 (![0] : Fin 1 → Fin S63x1.rank)
  bcast_S32_S1x32_1 : S32.BroadcastsInDim S1x32 (![1] : Fin 1 → Fin S1x32.rank)
  bcast_S_S63x1 : S_.BroadcastsInDim S63x1 (![] : Fin 0 → Fin S63x1.rank)
  bcast_S63x1_S63x32_0_1 : S63x1.BroadcastsInDim S63x32 (![0, 1] : Fin 2 → Fin S63x32.rank)
  bcast_S1x32_S63x32_0_1 : S1x32.BroadcastsInDim S63x32 (![0, 1] : Fin 2 → Fin S63x32.rank)
  bcast_S_S63x32 : S_.BroadcastsInDim S63x32 (![] : Fin 0 → Fin S63x32.rank)
  bcast_S63x32_S63x1x32x1_0_2 : S63x32.BroadcastsInDim S63x1x32x1 (![0, 2] : Fin 2 → Fin S63x1x32x1.rank)
  bcast_S63x32_S1x63x1x32_1_3 : S63x32.BroadcastsInDim S1x63x1x32 (![1, 3] : Fin 2 → Fin S1x63x1x32.rank)
  bcast_S32_S1x1x32x1_2 : S32.BroadcastsInDim S1x1x32x1 (![2] : Fin 1 → Fin S1x1x32x1.rank)
  bcast_S32_S1x1x1x32_3 : S32.BroadcastsInDim S1x1x1x32 (![3] : Fin 1 → Fin S1x1x1x32.rank)
  bcast_S_S63x1x32x1 : S_.BroadcastsInDim S63x1x32x1 (![] : Fin 0 → Fin S63x1x32x1.rank)
  bcast_S_S1x63x1x32 : S_.BroadcastsInDim S1x63x1x32 (![] : Fin 0 → Fin S1x63x1x32.rank)
  bcast_S_S1x1x32x1 : S_.BroadcastsInDim S1x1x32x1 (![] : Fin 0 → Fin S1x1x32x1.rank)
  bcast_S_S1x1x1x32 : S_.BroadcastsInDim S1x1x1x32 (![] : Fin 0 → Fin S1x1x1x32.rank)
  bcast_S63x1x32x1_S63x63x32x32_0_1_2_3 : S63x1x32x1.BroadcastsInDim S63x63x32x32 (![0, 1, 2, 3] : Fin 4 → Fin S63x63x32x32.rank)
  bcast_S1x63x1x32_S63x63x32x32_0_1_2_3 : S1x63x1x32.BroadcastsInDim S63x63x32x32 (![0, 1, 2, 3] : Fin 4 → Fin S63x63x32x32.rank)
  bcast_S1x1x32x1_S63x63x32x32_0_1_2_3 : S1x1x32x1.BroadcastsInDim S63x63x32x32 (![0, 1, 2, 3] : Fin 4 → Fin S63x63x32x32.rank)
  bcast_S1x1x1x32_S63x63x32x32_0_1_2_3 : S1x1x1x32.BroadcastsInDim S63x63x32x32 (![0, 1, 2, 3] : Fin 4 → Fin S63x63x32x32.rank)
  bcast_S63x63x32x32_S63x63x32x32x1_0_1_2_3 : S63x63x32x32.BroadcastsInDim S63x63x32x32x1 (![0, 1, 2, 3] : Fin 4 → Fin S63x63x32x32x1.rank)
  concatenates_S63x63x32x32x1_S63x63x32x32x1_S63x63x32x32x1_S63x63x32x32x1_S63x63x32x32x4_d4 : Shape.Concatenates [S63x63x32x32x1, S63x63x32x32x1, S63x63x32x32x1, S63x63x32x32x1] S63x63x32x32x4 4
  bcast_S63x63x32x32_S1x63x63x32x32_1_2_3_4 : S63x63x32x32.BroadcastsInDim S1x63x63x32x32 (![1, 2, 3, 4] : Fin 4 → Fin S1x63x63x32x32.rank)
  bcast_S1x63x63x32x32_S16x63x63x32x32_0_1_2_3_4 : S1x63x63x32x32.BroadcastsInDim S16x63x63x32x32 (![0, 1, 2, 3, 4] : Fin 5 → Fin S16x63x63x32x32.rank)
  bcast_S_S16x63x63x32x32 : S_.BroadcastsInDim S16x63x63x32x32 (![] : Fin 0 → Fin S16x63x63x32x32.rank)
  shapeCasts_S16x63x63x32x32_S16x3969x32x32 : S16x63x63x32x32.ShapeCasts S16x3969x32x32
  gather_S16x32x32x32x32_S63x63x32x32x4_S16x63x63x32x32_0_1234_n_n_1234_4_161111_wf : GatherDims.WF S16x32x32x32x32 S63x63x32x32x4 S16x63x63x32x32 [0] [1, 2, 3, 4] [] [1, 2, 3, 4] [] 4 ![16, 1, 1, 1, 1]

variable [Facts₀]

def gather_S16x32x32x32x32_S63x63x32x32x4_S16x63x63x32x32_0_1234_n_n_1234_4_161111 : GatherDims S16x32x32x32x32 S63x63x32x32x4 S16x63x63x32x32 where
  offsetDims := [0]
  collapsedSliceDims := [1, 2, 3, 4]
  operandBatchingDims := []
  startIndicesBatchingDims := []
  startIndexMap := [1, 2, 3, 4]
  indexVectorDim := 4
  sliceSizes := ![16, 1, 1, 1, 1]
  wf := gather_S16x32x32x32x32_S63x63x32x32x4_S16x63x63x32x32_0_1234_n_n_1234_4_161111_wf

class Facts : Prop extends Facts₀ where

variable [Facts]
-- ==== Proof.ShiftSpec.lean ====
/-
  The result both programs compute, as one function of the argument array.

  View the argument as X[b, p, q, i, j] (its axis of length 1024 split as p * 32 + q). The result, with its axis of
  length 3969 split as a * 63 + c, is

      out[b, a, c, i, j] = X[b, a + i - 31, c + j - 31, i, j]   when 31 ≤ a + i < 63 and 31 ≤ c + j < 63,
                           z                                     otherwise,

  z being the fill value (zero). It factors into a shift along the rows followed by a shift along the columns:

      mid[a, q, i, j]    = X[b, a + i - 31, q, i, j]             when 31 ≤ a + i < 63, z otherwise;
      out[b, a, c, i, j] = mid[a, c + j - 31, i, j]               when 31 ≤ c + j < 63, z otherwise,

  and the two descriptions agree entry by entry (`colShift_rowShift`): outside either window both give z, inside
  both they read the same entry of X. Nothing here needs the entries to be finite: no arithmetic is done on them.
-/
import Idealize.ShloMosaic.Lib.ValueIdx

noncomputable section

namespace Cert.ShiftSpec

open Idealize.ShloMosaic Idealize.ShloMosaic.ValueIdx

variable {α : Type}

/-- The result entry at batch `b`, output position `(a, c)`, source position `(i, j)`. -/
def shiftAt {B : Nat} (z : α) (X : (⟨5, ![B, 32, 32, 32, 32]⟩ : Shape).Idx → α)
    (b : Fin B) (a c : Fin 63) (i j : Fin 32) : α :=
  if h : (31 ≤ a.val + i.val ∧ a.val + i.val < 63) ∧ (31 ≤ c.val + j.val ∧ c.val + j.val < 63) then
    X (ix5 b ⟨a.val + i.val - 31, by omega⟩ ⟨c.val + j.val - 31, by omega⟩ i j)
  else z

/-- The whole result array. -/
def shifted {B : Nat} (z : α) (X : (⟨5, ![B, 32, 32, 32, 32]⟩ : Shape).Idx → α) :
    (⟨5, ![B, 63, 63, 32, 32]⟩ : Shape).Idx → α :=
  fun y => shiftAt z X (y 0) (y 1) (y 2) (y 3) (y 4)

/-- The row shift of one batch entry: `mid[a, q, i, j]`. -/
def rowShiftAt (z : α) (x : (⟨5, ![1, 32, 32, 32, 32]⟩ : Shape).Idx → α)
    (a : Fin 63) (q i j : Fin 32) : α :=
  if h : 31 ≤ a.val + i.val ∧ a.val + i.val < 63 then
    x (ix5 0 ⟨a.val + i.val - 31, by omega⟩ q i j)
  else z

/-- The column shift of a row-shifted array `M`: `out[a, c, i, j]`. -/
def colShiftAt (z : α) (M : Fin 63 → Fin 32 → Fin 32 → Fin 32 → α)
    (a c : Fin 63) (i j : Fin 32) : α :=
  if h : 31 ≤ c.val + j.val ∧ c.val + j.val < 63 then
    M a ⟨c.val + j.val - 31, by omega⟩ i j
  else z

/-- Shifting the rows and then the columns is the two-dimensional shift. -/
theorem colShift_rowShift (z : α) (x : (⟨5, ![1, 32, 32, 32, 32]⟩ : Shape).Idx → α)
    (a c : Fin 63) (i j : Fin 32) :
    colShiftAt z (rowShiftAt z x) a c i j = shiftAt z x 0 a c i j := by
  unfold colShiftAt rowShiftAt shiftAt
  by_cases h1 : 31 ≤ a.val + i.val ∧ a.val + i.val < 63 <;>
    by_cases h2 : 31 ≤ c.val + j.val ∧ c.val + j.val < 63 <;>
    simp [h1, h2]

/-- Inside the row window the row shift reads source row `p = a + i - 31`. -/
theorem rowShiftAt_in (z : α) (x : (⟨5, ![1, 32, 32, 32, 32]⟩ : Shape).Idx → α)
    (a : Fin 63) (q i j p : Fin 32) (h : a.val + i.val = 31 + p.val) :
    rowShiftAt z x a q i j = x (ix5 0 p q i j) := by
  have hp := p.isLt
  unfold rowShiftAt
  rw [dif_pos ⟨by omega, by omega⟩]
  congr 1
  funext d
  match d with
  | ⟨0, _⟩ => rfl
  | ⟨1, _⟩ => exact Fin.ext (by show a.val + i.val - 31 = p.val; omega)
  | ⟨2, _⟩ => rfl
  | ⟨3, _⟩ => rfl
  | ⟨4, _⟩ => rfl

/-- Outside the row window the row shift is the fill value. -/
theorem rowShiftAt_out (z : α) (x : (⟨5, ![1, 32, 32, 32, 32]⟩ : Shape).Idx → α)
    (a : Fin 63) (q i j : Fin 32) (h : ¬ (31 ≤ a.val + i.val ∧ a.val + i.val < 63)) :
    rowShiftAt z x a q i j = z := by
  unfold rowShiftAt; rw [dif_neg h]

/-- The row shift depends on its coordinates only through their values. -/
theorem rowShiftAt_congr (z : α) (x : (⟨5, ![1, 32, 32, 32, 32]⟩ : Shape).Idx → α)
    (a a' : Fin 63) (q q' i i' j j' : Fin 32) (ha : a.val = a'.val) (hq : q.val = q'.val) (hi : i.val = i'.val)
    (hj : j.val = j'.val) : rowShiftAt z x a q i j = rowShiftAt z x a' q' i' j' := by
  obtain rfl := Fin.ext ha; obtain rfl := Fin.ext hq; obtain rfl := Fin.ext hi; obtain rfl := Fin.ext hj; rfl

/-- Inside the column window the column shift reads source column `p = c + j - 31`. -/
theorem colShiftAt_in (z : α) (M : Fin 63 → Fin 32 → Fin 32 → Fin 32 → α)
    (a c : Fin 63) (i j p : Fin 32) (h : c.val + j.val = 31 + p.val) :
    colShiftAt z M a c i j = M a p i j := by
  have hp := p.isLt
  unfold colShiftAt
  rw [dif_pos ⟨by omega, by omega⟩]
  congr 1
  exact Fin.ext (by show c.val + j.val - 31 = p.val; omega)

/-- The shift of one batch entry is that entry of the shift of the whole array. -/
theorem shiftAt_block (z : α) (X : (⟨5, ![16, 32, 32, 32, 32]⟩ : Shape).Idx → α)
    (x : (⟨5, ![1, 32, 32, 32, 32]⟩ : Shape).Idx → α) (b : Fin 16)
    (hx : ∀ p q i j : Fin 32, x (ix5 (0 : Fin 1) p q i j) = X (ix5 b p q i j))
    (a a' c c' : Fin 63) (i i' j j' : Fin 32) (ha : a.val = a'.val) (hc : c.val = c'.val) (hi : i.val = i'.val)
    (hj : j.val = j'.val) : shiftAt z x (0 : Fin 1) a c i j = shiftAt z X b a' c' i' j' := by
  obtain rfl := Fin.ext ha; obtain rfl := Fin.ext hc; obtain rfl := Fin.ext hi; obtain rfl := Fin.ext hj
  unfold shiftAt
  by_cases h : (31 ≤ a.val + i.val ∧ a.val + i.val < 63) ∧ (31 ≤ c.val + j.val ∧ c.val + j.val < 63)
  · rw [dif_pos h, dif_pos h, hx]
  · rw [dif_neg h, dif_neg h]

end Cert.ShiftSpec

end
-- ==== Proof.LibCanonFamily.lean ====
/-
  What a buffer holds after a family of stores laid over an earlier fill, as one function of the buffer's index.

  A list of writes, last first, leaves at each index the payload of the first piece of the list whose rectangle
  holds the index (`View.canon`). If every piece of a front part `L` of the list agrees, on its own rectangle, with
  one function `G` of the index, and the rest `L0` of the list gives `G` at every index no piece of `L` holds, then
  the whole list gives `G` everywhere: at an index some piece of `L` holds, the first such piece decides and it
  agrees with `G`; elsewhere `L0` decides. The second theorem is the same for a front part given as a family
  indexed by `Fin n` (a zero fill overwritten by `n` shifted slices is the use here).
-/
import Idealize.ShloMosaic.Lib.Pipeline.Value

noncomputable section

namespace Cert.CanonFamily

open Idealize.ShloMosaic Idealize.ShloMosaic.View

variable {Val : EltTy → Type} {S : Shape} {e : EltTy} [∀ e, Nonempty (Val e)]

/-- Later writes `L` that each agree with `G` on their own rectangle, over earlier writes `L0` that give `G`
    wherever no later write lands, leave `G`. -/
theorem canon_append_of_pieces (G : S.Idx → Val e) (L0 : List (Piece Val S e)) :
    ∀ (L : List (Piece Val S e)), (∀ p ∈ L, ∀ x : p.1.shape.Idx, p.2 x = G (p.1.emb x)) →
      ∀ y, ((∀ p ∈ L, y ∉ p.1.set) → canon L0 y = G y) → canon (L ++ L0) y = G y
  | [], _, y, h0 => by
    rw [List.nil_append]; exact h0 (fun _ hp => absurd hp List.not_mem_nil)
  | p :: L, hL, y, h0 => by
    rw [List.cons_append]
    by_cases hm : y ∈ p.1.set
    · obtain ⟨x, rfl⟩ := p.1.exists_idx_of_mem hm
      rw [show p.1.idx x = p.1.emb x from rfl, canon_cons_emb]
      exact hL p List.mem_cons_self x
    · rw [canon_cons_of_not_mem _ _ hm]
      refine canon_append_of_pieces G L0 L (fun q hq => hL q (List.mem_cons_of_mem _ hq)) y (fun h => h0 ?_)
      intro q hq
      rcases List.mem_cons.mp hq with rfl | hq'
      · exact hm
      · exact h q hq'

/-- The same for later writes given as a family `P k`, `k : Fin n`. -/
theorem canon_ofFn_append {n : Nat} (P : Fin n → Piece Val S e) (L0 : List (Piece Val S e)) (G : S.Idx → Val e)
    (hP : ∀ k x, (P k).2 x = G ((P k).1.emb x)) (y : S.Idx)
    (h0 : (∀ k, y ∉ (P k).1.set) → canon L0 y = G y) : canon (List.ofFn P ++ L0) y = G y := by
  refine canon_append_of_pieces G L0 _ (fun p hp => ?_) y (fun h => h0 (fun k => h _ ?_))
  · obtain ⟨k, rfl⟩ := (List.mem_ofFn).mp hp
    exact hP k
  · exact (List.mem_ofFn).mpr ⟨k, rfl⟩

end Cert.CanonFamily

end
-- ==== Proof.KernelScratch.lean ====
/-
  The scratch buffer after the row pass.

  The body first fills the scratch `mid` of shape [63, 32, 32, 32] with zeros and then, for each source row index
  `i = 31 - k` (`k = 0 .. 31`), stores the input block's slice `x[:, :, i, :]` into `mid[k : k + 32, :, i, :]`. The body's
  run lists these 33 stores, last first; they are a family over `k` laid over the zero fill
  (`scratch_pieces`, by unfolding). Each store of the family agrees on its own rectangle with the row shift
  `mid[a, q, i, j] = x[a + i - 31, q, i, j]` (`scr_piece_eq`: the store with index `k` covers exactly the rows
  `a = k + p`, `p < 32`, at `i = 31 - k`, where `a + i - 31 = p`), and an entry no store of the family covers lies
  outside the row window and keeps the zero fill. So the scratch holds the row shift (`scratch_canon`).
-/
import proofs.«124557_j29884382445645_1_alg».proof.Proof.Gen.KernelIdeal.Frame
import proofs.«124557_j29884382445645_1_alg».proof.Proof.ShiftSpec
import proofs.«124557_j29884382445645_1_alg».proof.Proof.LibCanonFamily
import Idealize.ShloMosaic.Lib.Pipeline.Value
import Idealize.ShloMosaic.Lib.ValueIdx

set_option maxRecDepth 16384

noncomputable section

namespace Cert.KernelShift

open Idealize.ShloMosaic Idealize.ShloMosaic.TcCoe Idealize.ShloMosaic.Tactic Idealize.ShloMosaic.ValueIdx
open Idealize.SL Idealize.SL.Sem
open Cert.KernelIdeal Cert.KernelIdeal.Gen Cert.ShiftSpec

variable {F : FTy → Type} [FloatOps F]

/-- The fill value. -/
def zf : F .f32 := Scalar.ofBits .f32 0x00000000#32

/-- The cast the row pass applies to a loaded slice: [1, 32, 32, 1, 32] to [32, 32, 32] to [32, 32, 1, 32]. -/
def castIn (v : Vec F S1x32x32x1x32 .f32) : FVec F S32x32x1x32 .f32 :=
  shapeCast S32x32x1x32 (shapeCast S32x32x32 v shapeCasts_S1x32x32x1x32_S32x32x32) shapeCasts_S32x32x32_S32x32x1x32

theorem castIn_apply (v : Vec F S1x32x32x1x32 .f32) (x : S32x32x1x32.Idx) :
    castIn v x = v (ix5 (0 : Fin 1) (x 0) (x 1) (0 : Fin 1) (x 3)) := by
  have h2 : (x 2).val < 1 := (x 2).isLt
  unfold castIn
  refine (shapeCast_apply _ shapeCasts_S32x32x32_S32x32x1x32 x (ix3 (x 0) (x 1) (x 3)) ?_).trans
    (shapeCast_apply v shapeCasts_S1x32x32x1x32_S32x32x32 (ix3 (x 0) (x 1) (x 3)) (ix5 (0 : Fin 1) (x 0) (x 1) (0 : Fin 1) (x 3)) ?_)
  · rw [Shape.rowMajor_val_three, Shape.rowMajor_val_four]
    show ((x 0).val * 32 + (x 1).val) * 32 + (x 3).val = (((x 0).val * 32 + (x 1).val) * 1 + (x 2).val) * 32 + (x 3).val
    omega
  · rw [Shape.rowMajor_val_five, Shape.rowMajor_val_three]
    show ((((0 : Nat) * 32 + (x 0).val) * 32 + (x 1).val) * 1 + 0) * 32 + (x 3).val = ((x 0).val * 32 + (x 1).val) * 32 + (x 3).val
    omega

/-- The rectangle of the scratch the store with index `k` writes: rows `k .. k + 31`, source row index `31 - k`. -/
def scrRect (k : Fin 32) : Rect S63x32x32x32 :=
  Rect.unit ![k.val, 0, 31 - k.val, 0] ![32, 32, 1, 32] (by
    intro a; have := k.isLt
    match a with
    | ⟨0, _⟩ => show k.val + 32 ≤ 63; omega
    | ⟨1, _⟩ => show 0 + 32 ≤ 32; omega
    | ⟨2, _⟩ => show 31 - k.val + 1 ≤ 32; omega
    | ⟨3, _⟩ => show 0 + 32 ≤ 32; omega)

/-- The rectangle of the input block the store with index `k` loads: source row index `31 - k`. -/
def inRect (k : Fin 32) : Rect S1x32x32x32x32 :=
  Rect.unit ![0, 0, 0, 31 - k.val, 0] ![1, 32, 32, 1, 32] (by
    intro a; have := k.isLt
    match a with
    | ⟨0, _⟩ => show 0 + 1 ≤ 1; omega
    | ⟨1, _⟩ => show 0 + 32 ≤ 32; omega
    | ⟨2, _⟩ => show 0 + 32 ≤ 32; omega
    | ⟨3, _⟩ => show 31 - k.val + 1 ≤ 32; omega
    | ⟨4, _⟩ => show 0 + 32 ≤ 32; omega)

/-- The store with index `k` of the row pass. -/
def scrPiece (arg1 : Memref sig .tc .vmem S1x32x32x32x32 .f32) (harg1 : arg1.IsWhole) (x0 : Vec F S1x32x32x32x32 .f32)
    (k : Fin 32) : View.Piece (Elt F) S63x32x32x32 .f32 :=
  ⟨scrRect k, castIn (View.readAt (Elt F) arg1.view (inRect k).toLoadRect (harg1.unread x0))⟩

/-- The zero fill of the scratch. -/
def scrBase : View.Piece (Elt F) S63x32x32x32 .f32 :=
  ⟨Rect.unit ![0, 0, 0, 0] S63x32x32x32.size inb_S63x32x32x32_S63x32x32x32_0_0_0_0, k0_pay4⟩

/-- The scratch's stores, as the body's run lists them, are the family over `k` laid over the zero fill. -/
theorem scratch_pieces (c : Dev nD) (arg1 : Memref sig .tc .vmem S1x32x32x32x32 .f32) (harg1 : arg1.IsWhole)
    (x0 : Vec F S1x32x32x32x32 .f32) :
    kernelRun0_A.sl.HS0_33 c arg1 harg1 x0 = List.ofFn (scrPiece arg1 harg1 x0) ++ [scrBase] := rfl

/-- The row-shifted array as a function of the scratch's index. -/
def midArr (x0 : Vec F S1x32x32x32x32 .f32) : S63x32x32x32.Idx → Elt F .f32 :=
  fun y => rowShiftAt (zf (F := F)) x0 (y 0) (y 1) (y 2) (y 3)

/-- A scratch store's payload against the row shift, over literal types: the payload is the cast of a vector `v`
    that reads the block at source row `31 - k`, and lands at rows `k ..` of the scratch. -/
theorem scr_value (x0 : Vec F S1x32x32x32x32 .f32) (k : Fin 32) (v : Vec F S1x32x32x1x32 .f32)
    (hv : ∀ w : S1x32x32x1x32.Idx, v w = x0 (ix5 (0 : Fin 1) (w 1) (w 2) (⟨31 - k.val, by omega⟩ : Fin 32) (w 4)))
    (x : S32x32x1x32.Idx) (y : S63x32x32x32.Idx)
    (hy0 : (y 0).val = k.val + (x 0).val) (hy1 : (y 1).val = (x 1).val) (hy2 : (y 2).val = 31 - k.val)
    (hy3 : (y 3).val = (x 3).val) :
    castIn v x = midArr x0 y := by
  have hk := k.isLt
  have h0 : (x 0).val < 32 := (x 0).isLt
  rw [castIn_apply, hv]
  unfold midArr
  rw [rowShiftAt_in (zf (F := F)) x0 (y 0) (y 1) (y 2) (y 3) (x 0) (by omega)]
  congr 1
  funext d
  match d with
  | ⟨0, _⟩ => rfl
  | ⟨1, _⟩ => rfl
  | ⟨2, _⟩ => exact Fin.ext hy1.symm
  | ⟨3, _⟩ => exact Fin.ext hy2.symm
  | ⟨4, _⟩ => exact Fin.ext hy3.symm

theorem scr_piece_eq (arg1 : Memref sig .tc .vmem S1x32x32x32x32 .f32) (harg1 : arg1.IsWhole) (x0 : Vec F S1x32x32x32x32 .f32)
    (k : Fin 32) (x : (scrPiece arg1 harg1 x0 k).1.shape.Idx) :
    (scrPiece arg1 harg1 x0 k).2 x = midArr x0 ((scrPiece arg1 harg1 x0 k).1.emb x) := by
  have hk := k.isLt
  have h2 : (x 2).val < 1 := (x 2).isLt
  refine scr_value x0 k (View.readAt (Elt F) arg1.view (inRect k).toLoadRect (harg1.unread x0)) (fun w => ?_) x _ ?_ ?_ ?_ ?_
  · have hw0 : (w 0).val < 1 := (w 0).isLt
    have hw3 : (w 3).val < 1 := (w 3).isLt
    refine (congrFun (harg1.read_unread x0) _).trans (congrArg x0 (funext fun d => ?_))
    match d with
    | ⟨0, _⟩ => exact Fin.ext (by show 0 + 1 * (w 0).val = 0; omega)
    | ⟨1, _⟩ => exact Fin.ext (by show 0 + 1 * (w 1).val = (w 1).val; omega)
    | ⟨2, _⟩ => exact Fin.ext (by show 0 + 1 * (w 2).val = (w 2).val; omega)
    | ⟨3, _⟩ => exact Fin.ext (by show 31 - k.val + 1 * (w 3).val = 31 - k.val; omega)
    | ⟨4, _⟩ => exact Fin.ext (by show 0 + 1 * (w 4).val = (w 4).val; omega)
  · show k.val + 1 * (x 0).val = k.val + (x 0).val; omega
  · show 0 + 1 * (x 1).val = (x 1).val; omega
  · show 31 - k.val + 1 * (x 2).val = 31 - k.val; omega
  · show 0 + 1 * (x 3).val = (x 3).val; omega

theorem hz4 : (![0, 0, 0, 0] : Fin S63x32x32x32.rank → Nat) = fun _ => 0 := by
  funext a; match a with | ⟨0, _⟩ => rfl | ⟨1, _⟩ => rfl | ⟨2, _⟩ => rfl | ⟨3, _⟩ => rfl

theorem k0_pay4_apply (y : S63x32x32x32.Idx) : k0_pay4 (F := F) y = zf := rfl

/-- After its 33 stores the scratch holds the row shift of the input block. -/
theorem scratch_canon (c : Dev nD) (arg1 : Memref sig .tc .vmem S1x32x32x32x32 .f32) (harg1 : arg1.IsWhole)
    (x0 : Vec F S1x32x32x32x32 .f32) :
    View.canon (kernelRun0_A.sl.HS0_33 c arg1 harg1 x0) = midArr x0 := by
  funext y
  rw [scratch_pieces]
  refine Cert.CanonFamily.canon_ofFn_append _ _ (midArr x0) (scr_piece_eq arg1 harg1 x0) y (fun h => ?_)
  have hb : View.canon [scrBase (F := F)] = k0_pay4 := View.canon_unit_zero hz4 _ _
  rw [hb, k0_pay4_apply]
  unfold midArr
  refine (rowShiftAt_out _ _ _ _ _ _ (fun hw => ?_)).symm
  have hi : (y 2).val < 32 := (y 2).isLt
  have hq : (y 1).val < 32 := (y 1).isLt
  have hj : (y 3).val < 32 := (y 3).isLt
  refine h ⟨31 - (y 2).val, by omega⟩ ?_
  show y ∈ (scrRect ⟨31 - (y 2).val, by omega⟩).set
  unfold scrRect
  rw [Rect.mem_set_unit]
  intro a
  match a with
  | ⟨0, _⟩ => show 31 - (y 2).val ≤ (y 0).val ∧ (y 0).val < 31 - (y 2).val + 32; omega
  | ⟨1, _⟩ => show 0 ≤ (y 1).val ∧ (y 1).val < 0 + 32; omega
  | ⟨2, _⟩ => show 31 - (31 - (y 2).val) ≤ (y 2).val ∧ (y 2).val < 31 - (31 - (y 2).val) + 1; omega
  | ⟨3, _⟩ => show 0 ≤ (y 3).val ∧ (y 3).val < 0 + 32; omega

end Cert.KernelShift

end
-- ==== Proof.KernelBlock.lean ====
/-
  The output block after the column pass.

  The body fills the output block of shape [1, 63, 63, 32, 32] with zeros and then, for each source column index
  `j = 31 - k` (`k = 0 .. 31`), stores the scratch's slice `mid[:, :, :, j]` into `out[:, k : k + 32, :, j]`. Again the
  stores are a family over `k` laid over the zero fill (`out_pieces`); each loaded slice is read off the row shift
  the scratch holds, each store agrees on its rectangle with the two-dimensional shift
  `out[a, c, i, j] = mid[a, c + j - 31, i, j]` (`out_piece_eq`), and an entry no store covers lies outside the column
  window and keeps the zero fill. So the block ends as the shift of the input block (`out0_A_1_eq`).
-/
import proofs.«124557_j29884382445645_1_alg».proof.Proof.KernelScratch

set_option maxRecDepth 16384

noncomputable section

namespace Cert.KernelShift

open Idealize.ShloMosaic Idealize.ShloMosaic.TcCoe Idealize.ShloMosaic.Tactic Idealize.ShloMosaic.ValueIdx
open Idealize.SL Idealize.SL.Sem
open Cert.KernelIdeal Cert.KernelIdeal.Gen Cert.ShiftSpec

variable {F : FTy → Type} [FloatOps F]

/-- The cast the column pass applies to a loaded slice: [63, 32, 32, 1] to [63, 32, 32] to [1, 63, 32, 32, 1]. -/
def castOut (v : Vec F S63x32x32x1 .f32) : FVec F S1x63x32x32x1 .f32 :=
  shapeCast S1x63x32x32x1 (shapeCast S63x32x32 v shapeCasts_S63x32x32x1_S63x32x32) shapeCasts_S63x32x32_S1x63x32x32x1

theorem castOut_apply (v : Vec F S63x32x32x1 .f32) (x : S1x63x32x32x1.Idx) :
    castOut v x = v (ix4 (x 1) (x 2) (x 3) (0 : Fin 1)) := by
  have h0 : (x 0).val < 1 := (x 0).isLt
  have h4 : (x 4).val < 1 := (x 4).isLt
  unfold castOut
  refine (shapeCast_apply _ shapeCasts_S63x32x32_S1x63x32x32x1 x (ix3 (x 1) (x 2) (x 3)) ?_).trans
    (shapeCast_apply v shapeCasts_S63x32x32x1_S63x32x32 (ix3 (x 1) (x 2) (x 3)) (ix4 (x 1) (x 2) (x 3) (0 : Fin 1)) ?_)
  · rw [Shape.rowMajor_val_three, Shape.rowMajor_val_five]
    show ((x 1).val * 32 + (x 2).val) * 32 + (x 3).val = ((((x 0).val * 63 + (x 1).val) * 32 + (x 2).val) * 32 + (x 3).val) * 1 + (x 4).val
    omega
  · rw [Shape.rowMajor_val_four, Shape.rowMajor_val_three]
    show (((x 1).val * 32 + (x 2).val) * 32 + (x 3).val) * 1 + 0 = ((x 1).val * 32 + (x 2).val) * 32 + (x 3).val
    omega

/-- The rectangle of the output block the store with index `k` writes: columns `k .. k + 31`, source column index `31 - k`. -/
def outRect (k : Fin 32) : Rect S1x63x63x32x32 :=
  Rect.unit ![0, 0, k.val, 0, 31 - k.val] ![1, 63, 32, 32, 1] (by
    intro a; have := k.isLt
    match a with
    | ⟨0, _⟩ => show 0 + 1 ≤ 1; omega
    | ⟨1, _⟩ => show 0 + 63 ≤ 63; omega
    | ⟨2, _⟩ => show k.val + 32 ≤ 63; omega
    | ⟨3, _⟩ => show 0 + 32 ≤ 32; omega
    | ⟨4, _⟩ => show 31 - k.val + 1 ≤ 32; omega)

/-- The rectangle of the scratch the store with index `k` loads: source column index `31 - k`. -/
def ldRect (k : Fin 32) : Rect S63x32x32x32 :=
  Rect.unit ![0, 0, 0, 31 - k.val] ![63, 32, 32, 1] (by
    intro a; have := k.isLt
    match a with
    | ⟨0, _⟩ => show 0 + 63 ≤ 63; omega
    | ⟨1, _⟩ => show 0 + 32 ≤ 32; omega
    | ⟨2, _⟩ => show 0 + 32 ≤ 32; omega
    | ⟨3, _⟩ => show 31 - k.val + 1 ≤ 32; omega)

/-- The store with index `k` of the column pass. -/
def outPiece (c : Dev nD) (arg1 : Memref sig .tc .vmem S1x32x32x32x32 .f32) (harg1 : arg1.IsWhole)
    (arg3 : Memref sig .tc .vmem S63x32x32x32 .f32) (x0 : Vec F S1x32x32x32x32 .f32)
    (k : Fin 32) : View.Piece (Elt F) S1x63x63x32x32 .f32 :=
  ⟨outRect k, castOut (arg3.view.readCov (kernelRun0_A.sl.HS0_33 c arg1 harg1 x0) (ldRect k).toLoadRect)⟩

/-- The zero fill of the output block. -/
def outBase : View.Piece (Elt F) S1x63x63x32x32 .f32 :=
  ⟨Rect.unit ![0, 0, 0, 0, 0] S1x63x63x32x32.size inb_S1x63x63x32x32_S1x63x63x32x32_0_0_0_0_0, k0_pay3⟩

/-- The output's stores, as the body's run lists them, are the family over `k` laid over the zero fill. -/
theorem out_pieces (c : Dev nD) (i : grid0.Coords) (arg1 : Memref sig .tc .vmem S1x32x32x32x32 .f32) (harg1 : arg1.IsWhole) (arg2 : Memref sig .tc .vmem S1x63x63x32x32 .f32) (harg2 : arg2.IsWhole) (arg3 : Memref sig .tc .vmem S63x32x32x32 .f32) (harg3 : arg3.IsWhole)
    (x0 : Vec F S1x32x32x32x32 .f32) :
    (kernelRun0_A c i arg1 harg1 arg2 harg2 arg3 harg3 x0).1 = List.ofFn (outPiece c arg1 harg1 arg3 x0) ++ [outBase] := rfl

/-- The shifted block as a function of the output block's index. -/
def outArr (x0 : Vec F S1x32x32x32x32 .f32) : S1x63x63x32x32.Idx → Elt F .f32 :=
  fun y => shiftAt (zf (F := F)) x0 (0 : Fin 1) (y 1) (y 2) (y 3) (y 4)

/-- An output store's payload against the shift, over literal types: the payload is the cast of a vector `v` that
    reads the row-shifted array at source column `31 - k`, and lands at columns `k ..` of the output block. -/
theorem out_value (x0 : Vec F S1x32x32x32x32 .f32) (k : Fin 32) (v : Vec F S63x32x32x1 .f32)
    (hv : ∀ w : S63x32x32x1.Idx, v w = midArr x0 (ix4 (w 0) (w 1) (w 2) (⟨31 - k.val, by omega⟩ : Fin 32)))
    (x : S1x63x32x32x1.Idx) (y : S1x63x63x32x32.Idx)
    (hy1 : (y 1).val = (x 1).val) (hy2 : (y 2).val = k.val + (x 2).val) (hy3 : (y 3).val = (x 3).val)
    (hy4 : (y 4).val = 31 - k.val) :
    castOut v x = outArr x0 y := by
  have hk := k.isLt
  have h2 : (x 2).val < 32 := (x 2).isLt
  rw [castOut_apply, hv]
  show _ = shiftAt (zf (F := F)) x0 (0 : Fin 1) (y 1) (y 2) (y 3) (y 4)
  refine Eq.trans ?_ (colShift_rowShift (zf (F := F)) x0 (y 1) (y 2) (y 3) (y 4))
  refine Eq.trans ?_ (colShiftAt_in (zf (F := F)) (rowShiftAt zf x0) (y 1) (y 2) (y 3) (y 4) (x 2) (by omega)).symm
  show rowShiftAt (zf (F := F)) x0 (x 1) (x 2) (x 3) (⟨31 - k.val, by omega⟩ : Fin 32) = rowShiftAt (zf (F := F)) x0 (y 1) (x 2) (y 3) (y 4)
  exact rowShiftAt_congr _ _ _ _ _ _ _ _ _ _ hy1.symm rfl hy3.symm (by show 31 - k.val = (y 4).val; omega)

theorem out_piece_eq (c : Dev nD) (arg1 : Memref sig .tc .vmem S1x32x32x32x32 .f32) (harg1 : arg1.IsWhole)
    (arg3 : Memref sig .tc .vmem S63x32x32x32 .f32) (x0 : Vec F S1x32x32x32x32 .f32)
    (k : Fin 32) (x : (outPiece c arg1 harg1 arg3 x0 k).1.shape.Idx) :
    (outPiece c arg1 harg1 arg3 x0 k).2 x = outArr x0 ((outPiece c arg1 harg1 arg3 x0 k).1.emb x) := by
  have hk := k.isLt
  have h4 : (x 4).val < 1 := (x 4).isLt
  refine out_value x0 k (arg3.view.readCov (kernelRun0_A.sl.HS0_33 c arg1 harg1 x0) (ldRect k).toLoadRect) (fun w => ?_) x _ ?_ ?_ ?_ ?_
  · have hw3 : (w 3).val < 1 := (w 3).isLt
    refine (congrFun (View.readCov_eq_canon' arg3.view (kernelRun0_A.sl.HS0_33 c arg1 harg1 x0) (ldRect k).toLoadRect) w).trans ?_
    refine (congrFun (scratch_canon c arg1 harg1 x0) _).trans (congrArg (midArr x0) (funext fun d => ?_))
    match d with
    | ⟨0, _⟩ => exact Fin.ext (by show 0 + 1 * (w 0).val = (w 0).val; omega)
    | ⟨1, _⟩ => exact Fin.ext (by show 0 + 1 * (w 1).val = (w 1).val; omega)
    | ⟨2, _⟩ => exact Fin.ext (by show 0 + 1 * (w 2).val = (w 2).val; omega)
    | ⟨3, _⟩ => exact Fin.ext (by show 31 - k.val + 1 * (w 3).val = 31 - k.val; omega)
  · show 0 + 1 * (x 1).val = (x 1).val; omega
  · show k.val + 1 * (x 2).val = k.val + (x 2).val; omega
  · show 0 + 1 * (x 3).val = (x 3).val; omega
  · show 31 - k.val + 1 * (x 4).val = 31 - k.val; omega

theorem hz5 : (![0, 0, 0, 0, 0] : Fin S1x63x63x32x32.rank → Nat) = fun _ => 0 := by
  funext a; match a with | ⟨0, _⟩ => rfl | ⟨1, _⟩ => rfl | ⟨2, _⟩ => rfl | ⟨3, _⟩ => rfl | ⟨4, _⟩ => rfl

theorem k0_pay3_apply (y : S1x63x63x32x32.Idx) : k0_pay3 (F := F) y = zf := rfl

/-- After the body the output block holds the shift of the input block. -/
theorem out_canon (c : Dev nD) (i : grid0.Coords) (arg1 : Memref sig .tc .vmem S1x32x32x32x32 .f32) (harg1 : arg1.IsWhole) (arg2 : Memref sig .tc .vmem S1x63x63x32x32 .f32) (harg2 : arg2.IsWhole) (arg3 : Memref sig .tc .vmem S63x32x32x32 .f32) (harg3 : arg3.IsWhole)
    (x0 : Vec F S1x32x32x32x32 .f32) :
    View.canon (kernelRun0_A c i arg1 harg1 arg2 harg2 arg3 harg3 x0).1 = outArr x0 := by
  funext y
  rw [out_pieces]
  refine Cert.CanonFamily.canon_ofFn_append _ _ (outArr x0) (out_piece_eq c arg1 harg1 arg3 x0) y (fun h => ?_)
  have hb : View.canon [outBase (F := F)] = k0_pay3 := View.canon_unit_zero hz5 _ _
  rw [hb, k0_pay3_apply]
  unfold outArr shiftAt
  rw [dif_neg]
  intro hw
  have hj : (y 4).val < 32 := (y 4).isLt
  have hi : (y 3).val < 32 := (y 3).isLt
  have ha : (y 1).val < 63 := (y 1).isLt
  have h0 : (y 0).val < 1 := (y 0).isLt
  refine h ⟨31 - (y 4).val, by omega⟩ ?_
  show y ∈ (outRect ⟨31 - (y 4).val, by omega⟩).set
  unfold outRect
  rw [Rect.mem_set_unit]
  intro a
  match a with
  | ⟨0, _⟩ => show 0 ≤ (y 0).val ∧ (y 0).val < 0 + 1; omega
  | ⟨1, _⟩ => show 0 ≤ (y 1).val ∧ (y 1).val < 0 + 63; omega
  | ⟨2, _⟩ => show 31 - (y 4).val ≤ (y 2).val ∧ (y 2).val < 31 - (y 4).val + 32; omega
  | ⟨3, _⟩ => show 0 ≤ (y 3).val ∧ (y 3).val < 0 + 32; omega
  | ⟨4, _⟩ => show 31 - (31 - (y 4).val) ≤ (y 4).val ∧ (y 4).val < 31 - (31 - (y 4).val) + 1; omega

/-- What the body leaves in the output's staging buffer. -/
theorem out0_A_1_eq (c : Dev nD) (i : grid0.Coords) (arg1 : Memref sig .tc .vmem S1x32x32x32x32 .f32) (harg1 : arg1.IsWhole) (arg2 : Memref sig .tc .vmem S1x63x63x32x32 .f32) (harg2 : arg2.IsWhole) (arg3 : Memref sig .tc .vmem S63x32x32x32 .f32) (harg3 : arg3.IsWhole)
    (x0 : Vec F S1x32x32x32x32 .f32) :
    out0_A_1 c i arg1 harg1 arg2 harg2 arg3 harg3 x0 = outArr x0 := by
  unfold out0_A_1
  rw [View.read_writes_junk_eq_canon]
  exact out_canon c i arg1 harg1 arg2 harg2 arg3 harg3 x0

end Cert.KernelShift

end
-- ==== Proof.KernelArray.lean ====
/-
  From the blocks to the result array, and the program's run.

  The grid has one point per batch entry; the input window's block at point `t` is batch entry `t` of the array the
  region finds, and the output window's block at point `t` is batch entry `t` of the result. What point `t` writes
  back is therefore block `t` of the shift of the whole array (`flushed_eq`), the sixteen blocks tile the result
  (`final`), the array the region finds is the argument with its axis of length 1024 split (`V_main_v0`), and the
  operation after the region merges the two position axes (`tail_eq`). `kernel_run` states the program's run with
  its result as that one function of the argument.
-/
import proofs.«124557_j29884382445645_1_alg».proof.Proof.KernelBlock
import Idealize.ShloMosaic.Lib.StableHlo.Run

set_option maxRecDepth 16384

noncomputable section

namespace Cert.KernelShift

open Idealize.ShloMosaic Idealize.ShloMosaic.TcCoe Idealize.ShloMosaic.Tactic Idealize.ShloMosaic.ValueIdx
open Idealize.SL Idealize.SL.Sem
open Cert.KernelIdeal Cert.KernelIdeal.Gen Cert.ShiftSpec

variable {F : FTy → Type} [FloatOps F]

open Idealize.ShloMosaic.Pipeline (Dat)

/-! ## From blocks to the array -/

section Blocks
variable (m : (ℓ : Loc nD τ sig) → Buf (Elt F) ℓ) (ρ : Dev nD → PrngReg)

/-- The printed index maps over the grid: both windows move along the batch axis only. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0 :=
  (by decide +kernel : ∀ t : Fin grid0.N, _)

/-- The input block at point `t` is batch entry `t` of the array the region finds. -/
theorem iblk_apply (c : Dev nD) (t : Fin cfg0.N) (b : Fin 16) (hb : b.val = t.val) (p q i j : Fin 32) :
    (iblk m c 0 t : Vec F S1x32x32x32x32 .f32) (ix5 (0 : Fin 1) p q i j)
      = (V m c main_v0 : S16x32x32x32x32.Idx → Elt F .f32) (ix5 b p q i j) := by
  obtain ⟨e0, e1, e2, e3, e4, -⟩ := idx_facts t
  unfold iblk
  rw [View.read_apply]
  show V m c main_v0 _ = V m c main_v0 _
  congr 1
  funext a
  apply Fin.ext
  match a with
  | ⟨0, _⟩ => show win0_0.index t (0 : Fin 5) * 1 + 1 * 0 = b.val; omega
  | ⟨1, _⟩ => show win0_0.index t (1 : Fin 5) * 32 + 1 * p.val = p.val; omega
  | ⟨2, _⟩ => show win0_0.index t (2 : Fin 5) * 32 + 1 * q.val = q.val; omega
  | ⟨3, _⟩ => show win0_0.index t (3 : Fin 5) * 32 + 1 * i.val = i.val; omega
  | ⟨4, _⟩ => show win0_0.index t (4 : Fin 5) * 32 + 1 * j.val = j.val; omega

/-- The whole result of the region, as a function of the array the region finds. -/
def wholeArr (X : S16x32x32x32x32.Idx → Elt F .f32) : S16x63x63x32x32.Idx → Elt F .f32 :=
  shifted (zf (F := F)) X

/-- What point `t` writes back is block `t` of the whole result. -/
theorem flushed_eq (c : Dev nD) (t : Fin cfg0.N) :
    (dats m 0 c).flushed 1 t = ((cfg0.win 1).blk t).view.read (Elt F) (wholeArr (V m c main_v0)) := by
  obtain ⟨-, -, -, -, -, e0, e1, e2, e3, e4⟩ := idx_facts t
  show (cfg0.win 1).cut (grid0.coords t) ((dats m 0 c).after 1 t) = _
  rw [after0_1]
  unfold outsAt0
  rw [out0_A_1_eq]
  funext y
  have h0 : (y 0).val < 1 := (y 0).isLt
  show shiftAt (zf (F := F)) (iblk m c 0 t) (0 : Fin 1) (y 1) (y 2) (y 3) (y 4)
    = shiftAt (zf (F := F)) (V m c main_v0) ((((cfg0.win 1).blk t).view.emb y) 0) ((((cfg0.win 1).blk t).view.emb y) 1)
        ((((cfg0.win 1).blk t).view.emb y) 2) ((((cfg0.win 1).blk t).view.emb y) 3) ((((cfg0.win 1).blk t).view.emb y) 4)
  refine shiftAt_block _ _ _ _ (fun p q i j => ?_) _ _ _ _ _ _ _ _ ?_ ?_ ?_ ?_
  · exact iblk_apply m c t _ (by show win0_1.index t (0 : Fin 5) * 1 + 1 * (y 0).val = t.val; omega) p q i j
  · show (y 1).val = win0_1.index t (1 : Fin 5) * 63 + 1 * (y 1).val; omega
  · show (y 2).val = win0_1.index t (2 : Fin 5) * 63 + 1 * (y 2).val; omega
  · show (y 3).val = win0_1.index t (3 : Fin 5) * 32 + 1 * (y 3).val; omega
  · show (y 4).val = win0_1.index t (4 : Fin 5) * 32 + 1 * (y 4).val; omega

end Blocks

section Final
variable (m : (ℓ : Loc nD τ sig) → Buf (Elt F) ℓ) (ρ : Dev nD → PrngReg)

/-- An index of the result array lies in point `t`'s block iff each coordinate lies in the block's range. -/
theorem mem_blk (t : Fin cfg0.N) (i : S16x63x63x32x32.Idx) :
    i ∈ ((cfg0.win 1).blk t).view.set ↔ ∀ a : Fin 5, win0_1.index t a * S1x63x63x32x32.size a ≤ (i a).val
      ∧ (i a).val < win0_1.index t a * S1x63x63x32x32.size a + S1x63x63x32x32.size a := by
  show i ∈ ((View.whole main_v1).slice (win0_1.rect t)).set ↔ _
  rw [View.set_slice_whole, Rect.mem_set_unit]
  exact Iff.rfl

/-- The sixteen blocks tile the result array (block `b` is batch entry `b`), so after the region it is the shift
    of the array the region found. -/
theorem final (c : Dev nD) : (dats m 0 c).arrAt 1 cfg0.N = wholeArr (V m c main_v0) :=
  (dats m 0 c).arrAt_eq_of_cover 1 (wholeArr (V m c main_v0)) (fun t _ => flushed_eq m c t) fun i => by
    have hi0 : (i 0).val < 16 := (i 0).isLt
    have hi1 : (i 1).val < 63 := (i 1).isLt
    have hi2 : (i 2).val < 63 := (i 2).isLt
    have hi3 : (i 3).val < 32 := (i 3).isLt
    have hi4 : (i 4).val < 32 := (i 4).isLt
    have hN : (i 0).val < grid0.N := Nat.lt_of_lt_of_eq hi0 N_0.symm
    obtain ⟨t, ht⟩ : ∃ t : Fin cfg0.N, t.val = (i 0).val := ⟨⟨(i 0).val, hN⟩, rfl⟩
    obtain ⟨-, -, -, -, -, e0, e1, e2, e3, e4⟩ := idx_facts t
    refine ⟨t, flush0_1 t, ?_⟩
    rw [mem_blk]
    intro a
    match a with
    | ⟨0, _⟩ => show win0_1.index t (0 : Fin 5) * 1 ≤ (i 0).val ∧ (i 0).val < win0_1.index t (0 : Fin 5) * 1 + 1; omega
    | ⟨1, _⟩ => show win0_1.index t (1 : Fin 5) * 63 ≤ (i 1).val ∧ (i 1).val < win0_1.index t (1 : Fin 5) * 63 + 63; omega
    | ⟨2, _⟩ => show win0_1.index t (2 : Fin 5) * 63 ≤ (i 2).val ∧ (i 2).val < win0_1.index t (2 : Fin 5) * 63 + 63; omega
    | ⟨3, _⟩ => show win0_1.index t (3 : Fin 5) * 32 ≤ (i 3).val ∧ (i 3).val < win0_1.index t (3 : Fin 5) * 32 + 32; omega
    | ⟨4, _⟩ => show win0_1.index t (4 : Fin 5) * 32 ≤ (i 4).val ∧ (i 4).val < win0_1.index t (4 : Fin 5) * 32 + 32; omega

/-- The array the region finds is the argument with its long axis split. -/
theorem V_main_v0 (c : Dev nD) :
    (V m c main_v0 : S16x32x32x32x32.Idx → Elt F .f32)
      = shapeCast _ (m ((c : Thread nD τ).loc main_arg0)) shapeCasts_S16x1024x32x32_S16x32x32x32x32 := by
  show StableHlo.after hostOps0 (fun b => m (c, b)) (Proc.devRef .tc main_v0) = _
  after_results
  rfl

/-- The program's result: the region's result with its two position axes merged. -/
theorem tail_eq (c : Dev nD) :
    Pipeline.afterTail₀ cfgs (dats m) 0 (V0 m) [hostOps1] c main_v2
      = shapeCast _ (wholeArr (V m c main_v0)) shapeCasts_S16x63x63x32x32_S16x3969x32x32 := by
  unfold Pipeline.afterTail₀
  show StableHlo.after hostOps1 _ (Proc.devRef .tc main_v2) = _
  after_results
  exact congrArg (fun X => shapeCast S16x3969x32x32 X shapeCasts_S16x63x63x32x32_S16x3969x32x32)
    ((Pipeline.withArrays_arr spec0 launch0.win.arr_inj c (V0 m c) (fun w => (dats m 0 c).arrAt w cfg0.N) 1).trans (final m c))

/-- The kernel program's run, read: the result is the argument split, shifted, and merged again; the argument is
    left as it was. -/
theorem kernel_run : θ_run defs (onTc (τ := τ) (main (F := F))) ⟨m, fun _ => 0, ρ⟩ fun r => ∀ c : Dev nD,
      r.2.mem ((c.tc : Thread nD τ).loc main_v2)
        = shapeCast _ (wholeArr (shapeCast _ (m ((c.tc : Thread nD τ).loc main_arg0)) shapeCasts_S16x1024x32x32_S16x32x32x32x32))
            shapeCasts_S16x63x63x32x32_S16x3969x32x32
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_eq m c).trans (by rw [V_main_v0])),
        ((h c).2 main_arg0 (Pipeline.mem_restRefs_of main_arg0 (by decide) (by decide))).trans (W_main_arg0 m (dats m) c)⟩)
    (run_main m ρ)

end Final

end Cert.KernelShift

end
-- ==== Proof.RefRun.lean ====
/-
  The reference program's run, read back as its last stage.

  The reference is a straight line of 106 host operations (`ops`). Every weakly fair execution ends with each buffer at the fold of the
  operations' results over the launch contents (`StableHlo.run_seq`), so what remains is to evaluate that fold at the
  result buffer. It is evaluated in six consecutive chunks, each over an arbitrary valuation of which only the few
  buffers the chunk reads from earlier chunks matter:
    1. the row position, its validity bit and its clamped value;
    2. the same for the column position;
    3. the four components of the start index (they read the two clamped positions);
    4. the concatenation of the components and the gather (they read the four components and the split argument);
    5. the mask and the select against zero (they read the two validity bits and the gathered array);
    6. the final reshape.
  Each chunk's results are the matching stages `val_<buffer>` of the reference read one operation at a time, and a
  buffer a chunk does not write is left as it was; chaining the six gives the last stage, `val_main_v74`, of the
  argument (`after_ops_v74`, `run`).
-/
import proofs.«124557_j29884382445645_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 106 operations, in order (a called function's operations stand in its call's place, spelt `TRef.…`). -/
abbrev ops : List (HloOp τ sig (Elt F)) :=
  [ reshape main_arg0 main_v0 rfl shapeCasts_S16x1024x32x32_S16x32x32x32x32,
    nullary main_v1 (iotaInDim S63 32 0),
    unary main_v1 main_v2 (broadcastInDim S63x1 ![0] bcast_S63_S63x1_0 : (⟨S63, .i32⟩ : BufTy).Contents (Elt F) → (⟨S63x1, .i32⟩ : BufTy).Contents (Elt F)),
    nullary main_v3 (iotaInDim S32 32 0),
    unary main_v3 main_v4 (broadcastInDim S1x32 ![1] bcast_S32_S1x32_1 : (⟨S32, .i32⟩ : BufTy).Contents (Elt F) → (⟨S1x32, .i32⟩ : BufTy).Contents (Elt F)),
    nullary main_c (constantI S_ 32 31#32),
    unary main_c main_v5 (broadcastInDim S63x1 ![] bcast_S_S63x1 : (⟨S_, .i32⟩ : BufTy).Contents (Elt F) → (⟨S63x1, .i32⟩ : BufTy).Contents (Elt F)),
    binary main_v2 main_v5 main_v6 (subi : (⟨S63x1, .i32⟩ : BufTy).Contents (Elt F) → (⟨S63x1, .i32⟩ : BufTy).Contents (Elt F) → (⟨S63x1, .i32⟩ : BufTy).Contents (Elt F)),
    unary main_v6 main_v7 (broadcastInDim S63x32 ![0, 1] bcast_S63x1_S63x32_0_1 : (⟨S63x1, .i32⟩ : BufTy).Contents (Elt F) → (⟨S63x32, .i32⟩ : BufTy).Contents (Elt F)),
    unary main_v4 main_v8 (broadcastInDim S63x32 ![0, 1] bcast_S1x32_S63x32_0_1 : (⟨S1x32, .i32⟩ : BufTy).Contents (Elt F) → (⟨S63x32, .i32⟩ : BufTy).Contents (Elt F)),
    binary main_v7 main_v8 main_v9 (addi : (⟨S63x32, .i32⟩ : BufTy).Contents (Elt F) → (⟨S63x32, .i32⟩ : BufTy).Contents (Elt F) → (⟨S63x32, .i32⟩ : BufTy).Contents (Elt F)),
    nullary main_c_0 (constantI S_ 32 0#32),
    unary main_c_0 main_v10 (broadcastInDim S63x32 ![] bcast_S_S63x32 : (⟨S_, .i32⟩ : BufTy).Contents (Elt F) → (⟨S63x32, .i32⟩ : BufTy).Contents (Elt F)),
    binary main_v9 main_v10 main_v11 (cmpi .sge : (⟨S63x32, .i32⟩ : BufTy).Contents (Elt F) → (⟨S63x32, .i32⟩ : BufTy).Contents (Elt F) → (⟨S63x32, .i1⟩ : BufTy).Contents (Elt F)),
    nullary main_c_1 (constantI S_ 32 32#32),
    unary main_c_1 main_v12 (broadcastInDim S63x32 ![] bcast_S_S63x32 : (⟨S_, .i32⟩ : BufTy).Contents (Elt F) → (⟨S63x32, .i32⟩ : BufTy).Contents (Elt F)),
    binary main_v9 main_v12 main_v13 (cmpi .slt : (⟨S63x32, .i32⟩ : BufTy).Contents (Elt F) → (⟨S63x32, .i32⟩ : BufTy).Contents (Elt F) → (⟨S63x32, .i1⟩ : BufTy).Contents (Elt F)),
    binary main_v11 main_v13 main_v14 (andi : (⟨S63x32, .i1⟩ : BufTy).Contents (Elt F) → (⟨S63x32, .i1⟩ : BufTy).Contents (Elt F) → (⟨S63x32, .i1⟩ : BufTy).Contents (Elt F)),
    nullary main_c_2 (constantI S_ 32 0#32),
    nullary main_c_3 (constantI S_ 32 31#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S63x32, .i32⟩) main_call0_v1) (broadcastInDim S63x32 ![] bcast_S_S63x32),
    TRef.binary (TRef.of (T := ⟨S63x32, .i32⟩) main_call0_v1) (TRef.of (T := ⟨S63x32, .i32⟩) main_v9) (TRef.of (T := ⟨S63x32, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S63x32, .i32⟩) main_call0_v4) (broadcastInDim S63x32 ![] bcast_S_S63x32),
    TRef.binary (TRef.of (T := ⟨S63x32, .i32⟩) main_call0_v4) (TRef.of (T := ⟨S63x32, .i32⟩) main_call0_v2) (TRef.of (T := ⟨S63x32, .i32⟩) main_v15) minsi,
    nullary main_v16 (iotaInDim S63 32 0),
    unary main_v16 main_v17 (broadcastInDim S63x1 ![0] bcast_S63_S63x1_0 : (⟨S63, .i32⟩ : BufTy).Contents (Elt F) → (⟨S63x1, .i32⟩ : BufTy).Contents (Elt F)),
    nullary main_v18 (iotaInDim S32 32 0),
    unary main_v18 main_v19 (broadcastInDim S1x32 ![1] bcast_S32_S1x32_1 : (⟨S32, .i32⟩ : BufTy).Contents (Elt F) → (⟨S1x32, .i32⟩ : BufTy).Contents (Elt F)),
    nullary main_c_4 (constantI S_ 32 31#32),
    unary main_c_4 main_v20 (broadcastInDim S63x1 ![] bcast_S_S63x1 : (⟨S_, .i32⟩ : BufTy).Contents (Elt F) → (⟨S63x1, .i32⟩ : BufTy).Contents (Elt F)),
    binary main_v17 main_v20 main_v21 (subi : (⟨S63x1, .i32⟩ : BufTy).Contents (Elt F) → (⟨S63x1, .i32⟩ : BufTy).Contents (Elt F) → (⟨S63x1, .i32⟩ : BufTy).Contents (Elt F)),
    unary main_v21 main_v22 (broadcastInDim S63x32 ![0, 1] bcast_S63x1_S63x32_0_1 : (⟨S63x1, .i32⟩ : BufTy).Contents (Elt F) → (⟨S63x32, .i32⟩ : BufTy).Contents (Elt F)),
    unary main_v19 main_v23 (broadcastInDim S63x32 ![0, 1] bcast_S1x32_S63x32_0_1 : (⟨S1x32, .i32⟩ : BufTy).Contents (Elt F) → (⟨S63x32, .i32⟩ : BufTy).Contents (Elt F)),
    binary main_v22 main_v23 main_v24 (addi : (⟨S63x32, .i32⟩ : BufTy).Contents (Elt F) → (⟨S63x32, .i32⟩ : BufTy).Contents (Elt F) → (⟨S63x32, .i32⟩ : BufTy).Contents (Elt F)),
    nullary main_c_5 (constantI S_ 32 0#32),
    unary main_c_5 main_v25 (broadcastInDim S63x32 ![] bcast_S_S63x32 : (⟨S_, .i32⟩ : BufTy).Contents (Elt F) → (⟨S63x32, .i32⟩ : BufTy).Contents (Elt F)),
    binary main_v24 main_v25 main_v26 (cmpi .sge : (⟨S63x32, .i32⟩ : BufTy).Contents (Elt F) → (⟨S63x32, .i32⟩ : BufTy).Contents (Elt F) → (⟨S63x32, .i1⟩ : BufTy).Contents (Elt F)),
    nullary main_c_6 (constantI S_ 32 32#32),
    unary main_c_6 main_v27 (broadcastInDim S63x32 ![] bcast_S_S63x32 : (⟨S_, .i32⟩ : BufTy).Contents (Elt F) → (⟨S63x32, .i32⟩ : BufTy).Contents (Elt F)),
    binary main_v24 main_v27 main_v28 (cmpi .slt : (⟨S63x32, .i32⟩ : BufTy).Contents (Elt F) → (⟨S63x32, .i32⟩ : BufTy).Contents (Elt F) → (⟨S63x32, .i1⟩ : BufTy).Contents (Elt F)),
    binary main_v26 main_v28 main_v29 (andi : (⟨S63x32, .i1⟩ : BufTy).Contents (Elt F) → (⟨S63x32, .i1⟩ : BufTy).Contents (Elt F) → (⟨S63x32, .i1⟩ : BufTy).Contents (Elt F)),
    nullary main_c_7 (constantI S_ 32 0#32),
    nullary main_c_8 (constantI S_ 32 31#32),
    TRef.unary (TRef.of (T := ⟨S_, .i32⟩) main_c_7) (TRef.of (T := ⟨S_, .i32⟩) main_call1_v0) id,
    TRef.unary (TRef.of (T := ⟨S_, .i32⟩) main_call1_v0) (TRef.of (T := ⟨S63x32, .i32⟩) main_call1_v1) (broadcastInDim S63x32 ![] bcast_S_S63x32),
    TRef.binary (TRef.of (T := ⟨S63x32, .i32⟩) main_call1_v1) (TRef.of (T := ⟨S63x32, .i32⟩) main_v24) (TRef.of (T := ⟨S63x32, .i32⟩) main_call1_v2) maxsi,
    TRef.unary (TRef.of (T := ⟨S_, .i32⟩) main_c_8) (TRef.of (T := ⟨S_, .i32⟩) main_call1_v3) id,
    TRef.unary (TRef.of (T := ⟨S_, .i32⟩) main_call1_v3) (TRef.of (T := ⟨S63x32, .i32⟩) main_call1_v4) (broadcastInDim S63x32 ![] bcast_S_S63x32),
    TRef.binary (TRef.of (T := ⟨S63x32, .i32⟩) main_call1_v4) (TRef.of (T := ⟨S63x32, .i32⟩) main_call1_v2) (TRef.of (T := ⟨S63x32, .i32⟩) main_v30) minsi,
    unary main_v15 main_v31 (broadcastInDim S63x1x32x1 ![0, 2] bcast_S63x32_S63x1x32x1_0_2 : (⟨S63x32, .i32⟩ : BufTy).Contents (Elt F) → (⟨S63x1x32x1, .i32⟩ : BufTy).Contents (Elt F)),
    unary main_v30 main_v32 (broadcastInDim S1x63x1x32 ![1, 3] bcast_S63x32_S1x63x1x32_1_3 : (⟨S63x32, .i32⟩ : BufTy).Contents (Elt F) → (⟨S1x63x1x32, .i32⟩ : BufTy).Contents (Elt F)),
    nullary main_v33 (iotaInDim S32 32 0),
    unary main_v33 main_v34 (broadcastInDim S1x1x32x1 ![2] bcast_S32_S1x1x32x1_2 : (⟨S32, .i32⟩ : BufTy).Contents (Elt F) → (⟨S1x1x32x1, .i32⟩ : BufTy).Contents (Elt F)),
    nullary main_v35 (iotaInDim S32 32 0),
    unary main_v35 main_v36 (broadcastInDim S1x1x1x32 ![3] bcast_S32_S1x1x1x32_3 : (⟨S32, .i32⟩ : BufTy).Contents (Elt F) → (⟨S1x1x1x32, .i32⟩ : BufTy).Contents (Elt F)),
    nullary main_c_9 (constantI S_ 32 0#32),
    unary main_c_9 main_v37 (broadcastInDim S63x1x32x1 ![] bcast_S_S63x1x32x1 : (⟨S_, .i32⟩ : BufTy).Contents (Elt F) → (⟨S63x1x32x1, .i32⟩ : BufTy).Contents (Elt F)),
    binary main_v31 main_v37 main_v38 (cmpi .slt : (⟨S63x1x32x1, .i32⟩ : BufTy).Contents (Elt F) → (⟨S63x1x32x1, .i32⟩ : BufTy).Contents (Elt F) → (⟨S63x1x32x1, .i1⟩ : BufTy).Contents (Elt F)),
    nullary main_c_10 (constantI S_ 32 32#32),
    unary main_c_10 main_v39 (broadcastInDim S63x1x32x1 ![] bcast_S_S63x1x32x1 : (⟨S_, .i32⟩ : BufTy).Contents (Elt F) → (⟨S63x1x32x1, .i32⟩ : BufTy).Contents (Elt F)),
    binary main_v31 main_v39 main_v40 (addi : (⟨S63x1x32x1, .i32⟩ : BufTy).Contents (Elt F) → (⟨S63x1x32x1, .i32⟩ : BufTy).Contents (Elt F) → (⟨S63x1x32x1, .i32⟩ : BufTy).Contents (Elt F)),
    ternary main_v38 main_v40 main_v31 main_v41 (select : (⟨S63x1x32x1, .i1⟩ : BufTy).Contents (Elt F) → (⟨S63x1x32x1, .i32⟩ : BufTy).Contents (Elt F) → (⟨S63x1x32x1, .i32⟩ : BufTy).Contents (Elt F) → (⟨S63x1x32x1, .i32⟩ : BufTy).Contents (Elt F)),
    nullary main_c_11 (constantI S_ 32 0#32),
    unary main_c_11 main_v42 (broadcastInDim S1x63x1x32 ![] bcast_S_S1x63x1x32 : (⟨S_, .i32⟩ : BufTy).Contents (Elt F) → (⟨S1x63x1x32, .i32⟩ : BufTy).Contents (Elt F)),
    binary main_v32 main_v42 main_v43 (cmpi .slt : (⟨S1x63x1x32, .i32⟩ : BufTy).Contents (Elt F) → (⟨S1x63x1x32, .i32⟩ : BufTy).Contents (Elt F) → (⟨S1x63x1x32, .i1⟩ : BufTy).Contents (Elt F)),
    nullary main_c_12 (constantI S_ 32 32#32),
    unary main_c_12 main_v44 (broadcastInDim S1x63x1x32 ![] bcast_S_S1x63x1x32 : (⟨S_, .i32⟩ : BufTy).Contents (Elt F) → (⟨S1x63x1x32, .i32⟩ : BufTy).Contents (Elt F)),
    binary main_v32 main_v44 main_v45 (addi : (⟨S1x63x1x32, .i32⟩ : BufTy).Contents (Elt F) → (⟨S1x63x1x32, .i32⟩ : BufTy).Contents (Elt F) → (⟨S1x63x1x32, .i32⟩ : BufTy).Contents (Elt F)),
    ternary main_v43 main_v45 main_v32 main_v46 (select : (⟨S1x63x1x32, .i1⟩ : BufTy).Contents (Elt F) → (⟨S1x63x1x32, .i32⟩ : BufTy).Contents (Elt F) → (⟨S1x63x1x32, .i32⟩ : BufTy).Contents (Elt F) → (⟨S1x63x1x32, .i32⟩ : BufTy).Contents (Elt F)),
    nullary main_c_13 (constantI S_ 32 0#32),
    unary main_c_13 main_v47 (broadcastInDim S1x1x32x1 ![] bcast_S_S1x1x32x1 : (⟨S_, .i32⟩ : BufTy).Contents (Elt F) → (⟨S1x1x32x1, .i32⟩ : BufTy).Contents (Elt F)),
    binary main_v34 main_v47 main_v48 (cmpi .slt : (⟨S1x1x32x1, .i32⟩ : BufTy).Contents (Elt F) → (⟨S1x1x32x1, .i32⟩ : BufTy).Contents (Elt F) → (⟨S1x1x32x1, .i1⟩ : BufTy).Contents (Elt F)),
    nullary main_c_14 (constantI S_ 32 32#32),
    unary main_c_14 main_v49 (broadcastInDim S1x1x32x1 ![] bcast_S_S1x1x32x1 : (⟨S_, .i32⟩ : BufTy).Contents (Elt F) → (⟨S1x1x32x1, .i32⟩ : BufTy).Contents (Elt F)),
    binary main_v34 main_v49 main_v50 (addi : (⟨S1x1x32x1, .i32⟩ : BufTy).Contents (Elt F) → (⟨S1x1x32x1, .i32⟩ : BufTy).Contents (Elt F) → (⟨S1x1x32x1, .i32⟩ : BufTy).Contents (Elt F)),
    ternary main_v48 main_v50 main_v34 main_v51 (select : (⟨S1x1x32x1, .i1⟩ : BufTy).Contents (Elt F) → (⟨S1x1x32x1, .i32⟩ : BufTy).Contents (Elt F) → (⟨S1x1x32x1, .i32⟩ : BufTy).Contents (Elt F) → (⟨S1x1x32x1, .i32⟩ : BufTy).Contents (Elt F)),
    nullary main_c_15 (constantI S_ 32 0#32),
    unary main_c_15 main_v52 (broadcastInDim S1x1x1x32 ![] bcast_S_S1x1x1x32 : (⟨S_, .i32⟩ : BufTy).Contents (Elt F) → (⟨S1x1x1x32, .i32⟩ : BufTy).Contents (Elt F)),
    binary main_v36 main_v52 main_v53 (cmpi .slt : (⟨S1x1x1x32, .i32⟩ : BufTy).Contents (Elt F) → (⟨S1x1x1x32, .i32⟩ : BufTy).Contents (Elt F) → (⟨S1x1x1x32, .i1⟩ : BufTy).Contents (Elt F)),
    nullary main_c_16 (constantI S_ 32 32#32),
    unary main_c_16 main_v54 (broadcastInDim S1x1x1x32 ![] bcast_S_S1x1x1x32 : (⟨S_, .i32⟩ : BufTy).Contents (Elt F) → (⟨S1x1x1x32, .i32⟩ : BufTy).Contents (Elt F)),
    binary main_v36 main_v54 main_v55 (addi : (⟨S1x1x1x32, .i32⟩ : BufTy).Contents (Elt F) → (⟨S1x1x1x32, .i32⟩ : BufTy).Contents (Elt F) → (⟨S1x1x1x32, .i32⟩ : BufTy).Contents (Elt F)),
    ternary main_v53 main_v55 main_v36 main_v56 (select : (⟨S1x1x1x32, .i1⟩ : BufTy).Contents (Elt F) → (⟨S1x1x1x32, .i32⟩ : BufTy).Contents (Elt F) → (⟨S1x1x1x32, .i32⟩ : BufTy).Contents (Elt F) → (⟨S1x1x1x32, .i32⟩ : BufTy).Contents (Elt F)),
    unary main_v41 main_v57 (broadcastInDim S63x63x32x32 ![0, 1, 2, 3] bcast_S63x1x32x1_S63x63x32x32_0_1_2_3 : (⟨S63x1x32x1, .i32⟩ : BufTy).Contents (Elt F) → (⟨S63x63x32x32, .i32⟩ : BufTy).Contents (Elt F)),
    unary main_v46 main_v58 (broadcastInDim S63x63x32x32 ![0, 1, 2, 3] bcast_S1x63x1x32_S63x63x32x32_0_1_2_3 : (⟨S1x63x1x32, .i32⟩ : BufTy).Contents (Elt F) → (⟨S63x63x32x32, .i32⟩ : BufTy).Contents (Elt F)),
    unary main_v51 main_v59 (broadcastInDim S63x63x32x32 ![0, 1, 2, 3] bcast_S1x1x32x1_S63x63x32x32_0_1_2_3 : (⟨S1x1x32x1, .i32⟩ : BufTy).Contents (Elt F) → (⟨S63x63x32x32, .i32⟩ : BufTy).Contents (Elt F)),
    unary main_v56 main_v60 (broadcastInDim S63x63x32x32 ![0, 1, 2, 3] bcast_S1x1x1x32_S63x63x32x32_0_1_2_3 : (⟨S1x1x1x32, .i32⟩ : BufTy).Contents (Elt F) → (⟨S63x63x32x32, .i32⟩ : BufTy).Contents (Elt F)),
    unary main_v57 main_v61 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    unary main_v58 main_v62 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    unary main_v59 main_v63 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    unary main_v60 main_v64 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    nary ![main_v61, main_v62, main_v63, main_v64] main_v65 (fun u => concatenate S63x63x32x32x4 4 [⟨S63x63x32x32x1, u 0⟩, ⟨S63x63x32x32x1, u 1⟩, ⟨S63x63x32x32x1, u 2⟩, ⟨S63x63x32x32x1, u 3⟩] concatenates_S63x63x32x32x1_S63x63x32x32x1_S63x63x32x32x1_S63x63x32x32x1_S63x63x32x32x4_d4),
    binary main_v0 main_v65 main_v66 ((fun x i => Host.gather gather_S16x32x32x32x32_S63x63x32x32x4_S16x63x63x32x32_0_1234_n_n_1234_4_161111 x i) : (⟨S16x32x32x32x32, .f32⟩ : BufTy).Contents (Elt F) → (⟨S63x63x32x32x4, .i32⟩ : BufTy).Contents (Elt F) → (⟨S16x63x63x32x32, .f32⟩ : BufTy).Contents (Elt F)),
    unary main_v14 main_v67 (broadcastInDim S63x1x32x1 ![0, 2] bcast_S63x32_S63x1x32x1_0_2 : (⟨S63x32, .i1⟩ : BufTy).Contents (Elt F) → (⟨S63x1x32x1, .i1⟩ : BufTy).Contents (Elt F)),
    unary main_v29 main_v68 (broadcastInDim S1x63x1x32 ![1, 3] bcast_S63x32_S1x63x1x32_1_3 : (⟨S63x32, .i1⟩ : BufTy).Contents (Elt F) → (⟨S1x63x1x32, .i1⟩ : BufTy).Contents (Elt F)),
    unary main_v67 main_v69 (broadcastInDim S63x63x32x32 ![0, 1, 2, 3] bcast_S63x1x32x1_S63x63x32x32_0_1_2_3 : (⟨S63x1x32x1, .i1⟩ : BufTy).Contents (Elt F) → (⟨S63x63x32x32, .i1⟩ : BufTy).Contents (Elt F)),
    unary main_v68 main_v70 (broadcastInDim S63x63x32x32 ![0, 1, 2, 3] bcast_S1x63x1x32_S63x63x32x32_0_1_2_3 : (⟨S1x63x1x32, .i1⟩ : BufTy).Contents (Elt F) → (⟨S63x63x32x32, .i1⟩ : BufTy).Contents (Elt F)),
    binary main_v69 main_v70 main_v71 (andi : (⟨S63x63x32x32, .i1⟩ : BufTy).Contents (Elt F) → (⟨S63x63x32x32, .i1⟩ : BufTy).Contents (Elt F) → (⟨S63x63x32x32, .i1⟩ : BufTy).Contents (Elt F)),
    unary main_v71 main_v72 (broadcastInDim S1x63x63x32x32 ![1, 2, 3, 4] bcast_S63x63x32x32_S1x63x63x32x32_1_2_3_4 : (⟨S63x63x32x32, .i1⟩ : BufTy).Contents (Elt F) → (⟨S1x63x63x32x32, .i1⟩ : BufTy).Contents (Elt F)),
    nullary main_cst (constant S_ .f32 0x00000000#32),
    TRef.unary (TRef.of (T := ⟨S1x63x63x32x32, .i1⟩) main_v72) (TRef.of (T := ⟨S16x63x63x32x32, .i1⟩) main_call2_v0) (broadcastInDim S16x63x63x32x32 ![0, 1, 2, 3, 4] bcast_S1x63x63x32x32_S16x63x63x32x32_0_1_2_3_4),
    TRef.unary (TRef.of (T := ⟨S_, .f32⟩) main_cst) (TRef.of (T := ⟨S16x63x63x32x32, .f32⟩) main_call2_v1) (broadcastInDim S16x63x63x32x32 ![] bcast_S_S16x63x63x32x32),
    TRef.ternary (TRef.of (T := ⟨S16x63x63x32x32, .i1⟩) main_call2_v0) (TRef.of (T := ⟨S16x63x63x32x32, .f32⟩) main_v66) (TRef.of (T := ⟨S16x63x63x32x32, .f32⟩) main_call2_v1) (TRef.of (T := ⟨S16x63x63x32x32, .f32⟩) main_v73) select,
    reshape main_v73 main_v74 rfl shapeCasts_S16x63x63x32x32_S16x3969x32x32 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., unary_bufs_sub .., binary_bufs_sub .., unary_bufs_sub .., nullary_bufs_sub .., unary_bufs_sub .., unary_bufs_sub .., ternary_bufs_sub .., reshape_bufs_sub ..⟩

/-! ## The six chunks -/

abbrev ops1 : List (HloOp τ sig (Elt F)) :=
  [ reshape main_arg0 main_v0 rfl shapeCasts_S16x1024x32x32_S16x32x32x32x32,
    nullary main_v1 (iotaInDim S63 32 0),
    unary main_v1 main_v2 (broadcastInDim S63x1 ![0] bcast_S63_S63x1_0 : (⟨S63, .i32⟩ : BufTy).Contents (Elt F) → (⟨S63x1, .i32⟩ : BufTy).Contents (Elt F)),
    nullary main_v3 (iotaInDim S32 32 0),
    unary main_v3 main_v4 (broadcastInDim S1x32 ![1] bcast_S32_S1x32_1 : (⟨S32, .i32⟩ : BufTy).Contents (Elt F) → (⟨S1x32, .i32⟩ : BufTy).Contents (Elt F)),
    nullary main_c (constantI S_ 32 31#32),
    unary main_c main_v5 (broadcastInDim S63x1 ![] bcast_S_S63x1 : (⟨S_, .i32⟩ : BufTy).Contents (Elt F) → (⟨S63x1, .i32⟩ : BufTy).Contents (Elt F)),
    binary main_v2 main_v5 main_v6 (subi : (⟨S63x1, .i32⟩ : BufTy).Contents (Elt F) → (⟨S63x1, .i32⟩ : BufTy).Contents (Elt F) → (⟨S63x1, .i32⟩ : BufTy).Contents (Elt F)),
    unary main_v6 main_v7 (broadcastInDim S63x32 ![0, 1] bcast_S63x1_S63x32_0_1 : (⟨S63x1, .i32⟩ : BufTy).Contents (Elt F) → (⟨S63x32, .i32⟩ : BufTy).Contents (Elt F)),
    unary main_v4 main_v8 (broadcastInDim S63x32 ![0, 1] bcast_S1x32_S63x32_0_1 : (⟨S1x32, .i32⟩ : BufTy).Contents (Elt F) → (⟨S63x32, .i32⟩ : BufTy).Contents (Elt F)),
    binary main_v7 main_v8 main_v9 (addi : (⟨S63x32, .i32⟩ : BufTy).Contents (Elt F) → (⟨S63x32, .i32⟩ : BufTy).Contents (Elt F) → (⟨S63x32, .i32⟩ : BufTy).Contents (Elt F)),
    nullary main_c_0 (constantI S_ 32 0#32),
    unary main_c_0 main_v10 (broadcastInDim S63x32 ![] bcast_S_S63x32 : (⟨S_, .i32⟩ : BufTy).Contents (Elt F) → (⟨S63x32, .i32⟩ : BufTy).Contents (Elt F)),
    binary main_v9 main_v10 main_v11 (cmpi .sge : (⟨S63x32, .i32⟩ : BufTy).Contents (Elt F) → (⟨S63x32, .i32⟩ : BufTy).Contents (Elt F) → (⟨S63x32, .i1⟩ : BufTy).Contents (Elt F)),
    nullary main_c_1 (constantI S_ 32 32#32),
    unary main_c_1 main_v12 (broadcastInDim S63x32 ![] bcast_S_S63x32 : (⟨S_, .i32⟩ : BufTy).Contents (Elt F) → (⟨S63x32, .i32⟩ : BufTy).Contents (Elt F)),
    binary main_v9 main_v12 main_v13 (cmpi .slt : (⟨S63x32, .i32⟩ : BufTy).Contents (Elt F) → (⟨S63x32, .i32⟩ : BufTy).Contents (Elt F) → (⟨S63x32, .i1⟩ : BufTy).Contents (Elt F)),
    binary main_v11 main_v13 main_v14 (andi : (⟨S63x32, .i1⟩ : BufTy).Contents (Elt F) → (⟨S63x32, .i1⟩ : BufTy).Contents (Elt F) → (⟨S63x32, .i1⟩ : BufTy).Contents (Elt F)),
    nullary main_c_2 (constantI S_ 32 0#32),
    nullary main_c_3 (constantI S_ 32 31#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S63x32, .i32⟩) main_call0_v1) (broadcastInDim S63x32 ![] bcast_S_S63x32),
    TRef.binary (TRef.of (T := ⟨S63x32, .i32⟩) main_call0_v1) (TRef.of (T := ⟨S63x32, .i32⟩) main_v9) (TRef.of (T := ⟨S63x32, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S63x32, .i32⟩) main_call0_v4) (broadcastInDim S63x32 ![] bcast_S_S63x32),
    TRef.binary (TRef.of (T := ⟨S63x32, .i32⟩) main_call0_v4) (TRef.of (T := ⟨S63x32, .i32⟩) main_call0_v2) (TRef.of (T := ⟨S63x32, .i32⟩) main_v15) minsi ]
abbrev ops2 : List (HloOp τ sig (Elt F)) :=
  [ nullary main_v16 (iotaInDim S63 32 0),
    unary main_v16 main_v17 (broadcastInDim S63x1 ![0] bcast_S63_S63x1_0 : (⟨S63, .i32⟩ : BufTy).Contents (Elt F) → (⟨S63x1, .i32⟩ : BufTy).Contents (Elt F)),
    nullary main_v18 (iotaInDim S32 32 0),
    unary main_v18 main_v19 (broadcastInDim S1x32 ![1] bcast_S32_S1x32_1 : (⟨S32, .i32⟩ : BufTy).Contents (Elt F) → (⟨S1x32, .i32⟩ : BufTy).Contents (Elt F)),
    nullary main_c_4 (constantI S_ 32 31#32),
    unary main_c_4 main_v20 (broadcastInDim S63x1 ![] bcast_S_S63x1 : (⟨S_, .i32⟩ : BufTy).Contents (Elt F) → (⟨S63x1, .i32⟩ : BufTy).Contents (Elt F)),
    binary main_v17 main_v20 main_v21 (subi : (⟨S63x1, .i32⟩ : BufTy).Contents (Elt F) → (⟨S63x1, .i32⟩ : BufTy).Contents (Elt F) → (⟨S63x1, .i32⟩ : BufTy).Contents (Elt F)),
    unary main_v21 main_v22 (broadcastInDim S63x32 ![0, 1] bcast_S63x1_S63x32_0_1 : (⟨S63x1, .i32⟩ : BufTy).Contents (Elt F) → (⟨S63x32, .i32⟩ : BufTy).Contents (Elt F)),
    unary main_v19 main_v23 (broadcastInDim S63x32 ![0, 1] bcast_S1x32_S63x32_0_1 : (⟨S1x32, .i32⟩ : BufTy).Contents (Elt F) → (⟨S63x32, .i32⟩ : BufTy).Contents (Elt F)),
    binary main_v22 main_v23 main_v24 (addi : (⟨S63x32, .i32⟩ : BufTy).Contents (Elt F) → (⟨S63x32, .i32⟩ : BufTy).Contents (Elt F) → (⟨S63x32, .i32⟩ : BufTy).Contents (Elt F)),
    nullary main_c_5 (constantI S_ 32 0#32),
    unary main_c_5 main_v25 (broadcastInDim S63x32 ![] bcast_S_S63x32 : (⟨S_, .i32⟩ : BufTy).Contents (Elt F) → (⟨S63x32, .i32⟩ : BufTy).Contents (Elt F)),
    binary main_v24 main_v25 main_v26 (cmpi .sge : (⟨S63x32, .i32⟩ : BufTy).Contents (Elt F) → (⟨S63x32, .i32⟩ : BufTy).Contents (Elt F) → (⟨S63x32, .i1⟩ : BufTy).Contents (Elt F)),
    nullary main_c_6 (constantI S_ 32 32#32),
    unary main_c_6 main_v27 (broadcastInDim S63x32 ![] bcast_S_S63x32 : (⟨S_, .i32⟩ : BufTy).Contents (Elt F) → (⟨S63x32, .i32⟩ : BufTy).Contents (Elt F)),
    binary main_v24 main_v27 main_v28 (cmpi .slt : (⟨S63x32, .i32⟩ : BufTy).Contents (Elt F) → (⟨S63x32, .i32⟩ : BufTy).Contents (Elt F) → (⟨S63x32, .i1⟩ : BufTy).Contents (Elt F)),
    binary main_v26 main_v28 main_v29 (andi : (⟨S63x32, .i1⟩ : BufTy).Contents (Elt F) → (⟨S63x32, .i1⟩ : BufTy).Contents (Elt F) → (⟨S63x32, .i1⟩ : BufTy).Contents (Elt F)),
    nullary main_c_7 (constantI S_ 32 0#32),
    nullary main_c_8 (constantI S_ 32 31#32),
    TRef.unary (TRef.of (T := ⟨S_, .i32⟩) main_c_7) (TRef.of (T := ⟨S_, .i32⟩) main_call1_v0) id,
    TRef.unary (TRef.of (T := ⟨S_, .i32⟩) main_call1_v0) (TRef.of (T := ⟨S63x32, .i32⟩) main_call1_v1) (broadcastInDim S63x32 ![] bcast_S_S63x32),
    TRef.binary (TRef.of (T := ⟨S63x32, .i32⟩) main_call1_v1) (TRef.of (T := ⟨S63x32, .i32⟩) main_v24) (TRef.of (T := ⟨S63x32, .i32⟩) main_call1_v2) maxsi,
    TRef.unary (TRef.of (T := ⟨S_, .i32⟩) main_c_8) (TRef.of (T := ⟨S_, .i32⟩) main_call1_v3) id,
    TRef.unary (TRef.of (T := ⟨S_, .i32⟩) main_call1_v3) (TRef.of (T := ⟨S63x32, .i32⟩) main_call1_v4) (broadcastInDim S63x32 ![] bcast_S_S63x32),
    TRef.binary (TRef.of (T := ⟨S63x32, .i32⟩) main_call1_v4) (TRef.of (T := ⟨S63x32, .i32⟩) main_call1_v2) (TRef.of (T := ⟨S63x32, .i32⟩) main_v30) minsi ]
abbrev ops3 : List (HloOp τ sig (Elt F)) :=
  [ unary main_v15 main_v31 (broadcastInDim S63x1x32x1 ![0, 2] bcast_S63x32_S63x1x32x1_0_2 : (⟨S63x32, .i32⟩ : BufTy).Contents (Elt F) → (⟨S63x1x32x1, .i32⟩ : BufTy).Contents (Elt F)),
    unary main_v30 main_v32 (broadcastInDim S1x63x1x32 ![1, 3] bcast_S63x32_S1x63x1x32_1_3 : (⟨S63x32, .i32⟩ : BufTy).Contents (Elt F) → (⟨S1x63x1x32, .i32⟩ : BufTy).Contents (Elt F)),
    nullary main_v33 (iotaInDim S32 32 0),
    unary main_v33 main_v34 (broadcastInDim S1x1x32x1 ![2] bcast_S32_S1x1x32x1_2 : (⟨S32, .i32⟩ : BufTy).Contents (Elt F) → (⟨S1x1x32x1, .i32⟩ : BufTy).Contents (Elt F)),
    nullary main_v35 (iotaInDim S32 32 0),
    unary main_v35 main_v36 (broadcastInDim S1x1x1x32 ![3] bcast_S32_S1x1x1x32_3 : (⟨S32, .i32⟩ : BufTy).Contents (Elt F) → (⟨S1x1x1x32, .i32⟩ : BufTy).Contents (Elt F)),
    nullary main_c_9 (constantI S_ 32 0#32),
    unary main_c_9 main_v37 (broadcastInDim S63x1x32x1 ![] bcast_S_S63x1x32x1 : (⟨S_, .i32⟩ : BufTy).Contents (Elt F) → (⟨S63x1x32x1, .i32⟩ : BufTy).Contents (Elt F)),
    binary main_v31 main_v37 main_v38 (cmpi .slt : (⟨S63x1x32x1, .i32⟩ : BufTy).Contents (Elt F) → (⟨S63x1x32x1, .i32⟩ : BufTy).Contents (Elt F) → (⟨S63x1x32x1, .i1⟩ : BufTy).Contents (Elt F)),
    nullary main_c_10 (constantI S_ 32 32#32),
    unary main_c_10 main_v39 (broadcastInDim S63x1x32x1 ![] bcast_S_S63x1x32x1 : (⟨S_, .i32⟩ : BufTy).Contents (Elt F) → (⟨S63x1x32x1, .i32⟩ : BufTy).Contents (Elt F)),
    binary main_v31 main_v39 main_v40 (addi : (⟨S63x1x32x1, .i32⟩ : BufTy).Contents (Elt F) → (⟨S63x1x32x1, .i32⟩ : BufTy).Contents (Elt F) → (⟨S63x1x32x1, .i32⟩ : BufTy).Contents (Elt F)),
    ternary main_v38 main_v40 main_v31 main_v41 (select : (⟨S63x1x32x1, .i1⟩ : BufTy).Contents (Elt F) → (⟨S63x1x32x1, .i32⟩ : BufTy).Contents (Elt F) → (⟨S63x1x32x1, .i32⟩ : BufTy).Contents (Elt F) → (⟨S63x1x32x1, .i32⟩ : BufTy).Contents (Elt F)),
    nullary main_c_11 (constantI S_ 32 0#32),
    unary main_c_11 main_v42 (broadcastInDim S1x63x1x32 ![] bcast_S_S1x63x1x32 : (⟨S_, .i32⟩ : BufTy).Contents (Elt F) → (⟨S1x63x1x32, .i32⟩ : BufTy).Contents (Elt F)),
    binary main_v32 main_v42 main_v43 (cmpi .slt : (⟨S1x63x1x32, .i32⟩ : BufTy).Contents (Elt F) → (⟨S1x63x1x32, .i32⟩ : BufTy).Contents (Elt F) → (⟨S1x63x1x32, .i1⟩ : BufTy).Contents (Elt F)),
    nullary main_c_12 (constantI S_ 32 32#32),
    unary main_c_12 main_v44 (broadcastInDim S1x63x1x32 ![] bcast_S_S1x63x1x32 : (⟨S_, .i32⟩ : BufTy).Contents (Elt F) → (⟨S1x63x1x32, .i32⟩ : BufTy).Contents (Elt F)),
    binary main_v32 main_v44 main_v45 (addi : (⟨S1x63x1x32, .i32⟩ : BufTy).Contents (Elt F) → (⟨S1x63x1x32, .i32⟩ : BufTy).Contents (Elt F) → (⟨S1x63x1x32, .i32⟩ : BufTy).Contents (Elt F)),
    ternary main_v43 main_v45 main_v32 main_v46 (select : (⟨S1x63x1x32, .i1⟩ : BufTy).Contents (Elt F) → (⟨S1x63x1x32, .i32⟩ : BufTy).Contents (Elt F) → (⟨S1x63x1x32, .i32⟩ : BufTy).Contents (Elt F) → (⟨S1x63x1x32, .i32⟩ : BufTy).Contents (Elt F)),
    nullary main_c_13 (constantI S_ 32 0#32),
    unary main_c_13 main_v47 (broadcastInDim S1x1x32x1 ![] bcast_S_S1x1x32x1 : (⟨S_, .i32⟩ : BufTy).Contents (Elt F) → (⟨S1x1x32x1, .i32⟩ : BufTy).Contents (Elt F)),
    binary main_v34 main_v47 main_v48 (cmpi .slt : (⟨S1x1x32x1, .i32⟩ : BufTy).Contents (Elt F) → (⟨S1x1x32x1, .i32⟩ : BufTy).Contents (Elt F) → (⟨S1x1x32x1, .i1⟩ : BufTy).Contents (Elt F)),
    nullary main_c_14 (constantI S_ 32 32#32),
    unary main_c_14 main_v49 (broadcastInDim S1x1x32x1 ![] bcast_S_S1x1x32x1 : (⟨S_, .i32⟩ : BufTy).Contents (Elt F) → (⟨S1x1x32x1, .i32⟩ : BufTy).Contents (Elt F)),
    binary main_v34 main_v49 main_v50 (addi : (⟨S1x1x32x1, .i32⟩ : BufTy).Contents (Elt F) → (⟨S1x1x32x1, .i32⟩ : BufTy).Contents (Elt F) → (⟨S1x1x32x1, .i32⟩ : BufTy).Contents (Elt F)),
    ternary main_v48 main_v50 main_v34 main_v51 (select : (⟨S1x1x32x1, .i1⟩ : BufTy).Contents (Elt F) → (⟨S1x1x32x1, .i32⟩ : BufTy).Contents (Elt F) → (⟨S1x1x32x1, .i32⟩ : BufTy).Contents (Elt F) → (⟨S1x1x32x1, .i32⟩ : BufTy).Contents (Elt F)),
    nullary main_c_15 (constantI S_ 32 0#32),
    unary main_c_15 main_v52 (broadcastInDim S1x1x1x32 ![] bcast_S_S1x1x1x32 : (⟨S_, .i32⟩ : BufTy).Contents (Elt F) → (⟨S1x1x1x32, .i32⟩ : BufTy).Contents (Elt F)),
    binary main_v36 main_v52 main_v53 (cmpi .slt : (⟨S1x1x1x32, .i32⟩ : BufTy).Contents (Elt F) → (⟨S1x1x1x32, .i32⟩ : BufTy).Contents (Elt F) → (⟨S1x1x1x32, .i1⟩ : BufTy).Contents (Elt F)),
    nullary main_c_16 (constantI S_ 32 32#32),
    unary main_c_16 main_v54 (broadcastInDim S1x1x1x32 ![] bcast_S_S1x1x1x32 : (⟨S_, .i32⟩ : BufTy).Contents (Elt F) → (⟨S1x1x1x32, .i32⟩ : BufTy).Contents (Elt F)),
    binary main_v36 main_v54 main_v55 (addi : (⟨S1x1x1x32, .i32⟩ : BufTy).Contents (Elt F) → (⟨S1x1x1x32, .i32⟩ : BufTy).Contents (Elt F) → (⟨S1x1x1x32, .i32⟩ : BufTy).Contents (Elt F)),
    ternary main_v53 main_v55 main_v36 main_v56 (select : (⟨S1x1x1x32, .i1⟩ : BufTy).Contents (Elt F) → (⟨S1x1x1x32, .i32⟩ : BufTy).Contents (Elt F) → (⟨S1x1x1x32, .i32⟩ : BufTy).Contents (Elt F) → (⟨S1x1x1x32, .i32⟩ : BufTy).Contents (Elt F)),
    unary main_v41 main_v57 (broadcastInDim S63x63x32x32 ![0, 1, 2, 3] bcast_S63x1x32x1_S63x63x32x32_0_1_2_3 : (⟨S63x1x32x1, .i32⟩ : BufTy).Contents (Elt F) → (⟨S63x63x32x32, .i32⟩ : BufTy).Contents (Elt F)),
    unary main_v46 main_v58 (broadcastInDim S63x63x32x32 ![0, 1, 2, 3] bcast_S1x63x1x32_S63x63x32x32_0_1_2_3 : (⟨S1x63x1x32, .i32⟩ : BufTy).Contents (Elt F) → (⟨S63x63x32x32, .i32⟩ : BufTy).Contents (Elt F)),
    unary main_v51 main_v59 (broadcastInDim S63x63x32x32 ![0, 1, 2, 3] bcast_S1x1x32x1_S63x63x32x32_0_1_2_3 : (⟨S1x1x32x1, .i32⟩ : BufTy).Contents (Elt F) → (⟨S63x63x32x32, .i32⟩ : BufTy).Contents (Elt F)),
    unary main_v56 main_v60 (broadcastInDim S63x63x32x32 ![0, 1, 2, 3] bcast_S1x1x1x32_S63x63x32x32_0_1_2_3 : (⟨S1x1x1x32, .i32⟩ : BufTy).Contents (Elt F) → (⟨S63x63x32x32, .i32⟩ : BufTy).Contents (Elt F)),
    unary main_v57 main_v61 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    unary main_v58 main_v62 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    unary main_v59 main_v63 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)),
    unary main_v60 main_v64 (broadcastInDim S63x63x32x32x1 ![0, 1, 2, 3] bcast_S63x63x32x32_S63x63x32x32x1_0_1_2_3 : (⟨S63x63x32x32, .i32⟩ : BufTy).Contents (Elt F) → (⟨S63x63x32x32x1, .i32⟩ : BufTy).Contents (Elt F)) ]
abbrev ops4 : List (HloOp τ sig (Elt F)) :=
  [ nary ![main_v61, main_v62, main_v63, main_v64] main_v65 (fun u => concatenate S63x63x32x32x4 4 [⟨S63x63x32x32x1, u 0⟩, ⟨S63x63x32x32x1, u 1⟩, ⟨S63x63x32x32x1, u 2⟩, ⟨S63x63x32x32x1, u 3⟩] concatenates_S63x63x32x32x1_S63x63x32x32x1_S63x63x32x32x1_S63x63x32x32x1_S63x63x32x32x4_d4),
    binary main_v0 main_v65 main_v66 ((fun x i => Host.gather gather_S16x32x32x32x32_S63x63x32x32x4_S16x63x63x32x32_0_1234_n_n_1234_4_161111 x i) : (⟨S16x32x32x32x32, .f32⟩ : BufTy).Contents (Elt F) → (⟨S63x63x32x32x4, .i32⟩ : BufTy).Contents (Elt F) → (⟨S16x63x63x32x32, .f32⟩ : BufTy).Contents (Elt F)) ]
abbrev ops5 : List (HloOp τ sig (Elt F)) :=
  [ unary main_v14 main_v67 (broadcastInDim S63x1x32x1 ![0, 2] bcast_S63x32_S63x1x32x1_0_2 : (⟨S63x32, .i1⟩ : BufTy).Contents (Elt F) → (⟨S63x1x32x1, .i1⟩ : BufTy).Contents (Elt F)),
    unary main_v29 main_v68 (broadcastInDim S1x63x1x32 ![1, 3] bcast_S63x32_S1x63x1x32_1_3 : (⟨S63x32, .i1⟩ : BufTy).Contents (Elt F) → (⟨S1x63x1x32, .i1⟩ : BufTy).Contents (Elt F)),
    unary main_v67 main_v69 (broadcastInDim S63x63x32x32 ![0, 1, 2, 3] bcast_S63x1x32x1_S63x63x32x32_0_1_2_3 : (⟨S63x1x32x1, .i1⟩ : BufTy).Contents (Elt F) → (⟨S63x63x32x32, .i1⟩ : BufTy).Contents (Elt F)),
    unary main_v68 main_v70 (broadcastInDim S63x63x32x32 ![0, 1, 2, 3] bcast_S1x63x1x32_S63x63x32x32_0_1_2_3 : (⟨S1x63x1x32, .i1⟩ : BufTy).Contents (Elt F) → (⟨S63x63x32x32, .i1⟩ : BufTy).Contents (Elt F)),
    binary main_v69 main_v70 main_v71 (andi : (⟨S63x63x32x32, .i1⟩ : BufTy).Contents (Elt F) → (⟨S63x63x32x32, .i1⟩ : BufTy).Contents (Elt F) → (⟨S63x63x32x32, .i1⟩ : BufTy).Contents (Elt F)),
    unary main_v71 main_v72 (broadcastInDim S1x63x63x32x32 ![1, 2, 3, 4] bcast_S63x63x32x32_S1x63x63x32x32_1_2_3_4 : (⟨S63x63x32x32, .i1⟩ : BufTy).Contents (Elt F) → (⟨S1x63x63x32x32, .i1⟩ : BufTy).Contents (Elt F)),
    nullary main_cst (constant S_ .f32 0x00000000#32),
    TRef.unary (TRef.of (T := ⟨S1x63x63x32x32, .i1⟩) main_v72) (TRef.of (T := ⟨S16x63x63x32x32, .i1⟩) main_call2_v0) (broadcastInDim S16x63x63x32x32 ![0, 1, 2, 3, 4] bcast_S1x63x63x32x32_S16x63x63x32x32_0_1_2_3_4),
    TRef.unary (TRef.of (T := ⟨S_, .f32⟩) main_cst) (TRef.of (T := ⟨S16x63x63x32x32, .f32⟩) main_call2_v1) (broadcastInDim S16x63x63x32x32 ![] bcast_S_S16x63x63x32x32),
    TRef.ternary (TRef.of (T := ⟨S16x63x63x32x32, .i1⟩) main_call2_v0) (TRef.of (T := ⟨S16x63x63x32x32, .f32⟩) main_v66) (TRef.of (T := ⟨S16x63x63x32x32, .f32⟩) main_call2_v1) (TRef.of (T := ⟨S16x63x63x32x32, .f32⟩) main_v73) select ]
abbrev ops6 : List (HloOp τ sig (Elt F)) :=
  [ reshape main_v73 main_v74 rfl shapeCasts_S16x63x63x32x32_S16x3969x32x32 ]

theorem after_append (l1 l2 : List (HloOp τ sig (Elt F))) (V : Valuation τ sig (Elt F)) :
    after (l1 ++ l2) V = after l2 (after l1 V) := by
  induction l1 generalizing V with
  | nil => rfl
  | cons op l ih => rw [List.cons_append, after_cons, after_cons]; exact ih _

section Stages
variable (V : Valuation τ sig (Elt F))

theorem s1_v0 : after ops1 V (Proc.devRef .tc main_v0) = val_main_v0 (F := F) (V (Proc.devRef .tc main_arg0)) := by
  after_results_simp <;> rfl
theorem s1_v14 : after ops1 V (Proc.devRef .tc main_v14) = val_main_v14 (F := F) := by
  after_results_simp <;> rfl
theorem s1_v15 : after ops1 V (Proc.devRef .tc main_v15) = val_main_v15 (F := F) := by
  after_results_simp <;> rfl
theorem s2_v29 : after ops2 V (Proc.devRef .tc main_v29) = val_main_v29 (F := F) := by
  after_results_simp <;> rfl
theorem s2_v30 : after ops2 V (Proc.devRef .tc main_v30) = val_main_v30 (F := F) := by
  after_results_simp <;> rfl
theorem s2_keep_v0 : after ops2 V (Proc.devRef .tc main_v0) = V (Proc.devRef .tc main_v0) := by
  after_results_simp <;> rfl
theorem s2_keep_v14 : after ops2 V (Proc.devRef .tc main_v14) = V (Proc.devRef .tc main_v14) := by
  after_results_simp <;> rfl
theorem s2_keep_v15 : after ops2 V (Proc.devRef .tc main_v15) = V (Proc.devRef .tc main_v15) := by
  after_results_simp <;> rfl

theorem s3_v61 (h15 : V (Proc.devRef .tc main_v15) = val_main_v15 (F := F)) :
    after ops3 V (Proc.devRef .tc main_v61) = val_main_v61 (F := F) := by
  after_results_simp
  rw [h15]
  rfl
theorem s3_v62 (h30 : V (Proc.devRef .tc main_v30) = val_main_v30 (F := F)) :
    after ops3 V (Proc.devRef .tc main_v62) = val_main_v62 (F := F) := by
  after_results_simp
  rw [h30]
  rfl
theorem s3_v63 : after ops3 V (Proc.devRef .tc main_v63) = val_main_v63 (F := F) := by
  after_results_simp <;> rfl
theorem s3_v64 : after ops3 V (Proc.devRef .tc main_v64) = val_main_v64 (F := F) := by
  after_results_simp <;> rfl
theorem s3_keep_v0 : after ops3 V (Proc.devRef .tc main_v0) = V (Proc.devRef .tc main_v0) := by
  after_results_simp <;> rfl
theorem s3_keep_v14 : after ops3 V (Proc.devRef .tc main_v14) = V (Proc.devRef .tc main_v14) := by
  after_results_simp <;> rfl
theorem s3_keep_v29 : after ops3 V (Proc.devRef .tc main_v29) = V (Proc.devRef .tc main_v29) := by
  after_results_simp <;> rfl

theorem s4_v66 (x0 : (⟨S16x1024x32x32, .f32⟩ : BufTy).Contents (Elt F))
    (h0 : V (Proc.devRef .tc main_v0) = val_main_v0 (F := F) x0)
    (h61 : V (Proc.devRef .tc main_v61) = val_main_v61 (F := F)) (h62 : V (Proc.devRef .tc main_v62) = val_main_v62 (F := F))
    (h63 : V (Proc.devRef .tc main_v63) = val_main_v63 (F := F)) (h64 : V (Proc.devRef .tc main_v64) = val_main_v64 (F := F)) :
    after ops4 V (Proc.devRef .tc main_v66) = val_main_v66 (F := F) x0 := by
  have h61' : V (Proc.devRef .tc (![main_v61, main_v62, main_v63, main_v64] 0)) = val_main_v61 (F := F) := h61
  have h62' : V (Proc.devRef .tc (![main_v61, main_v62, main_v63, main_v64] 1)) = val_main_v62 (F := F) := h62
  have h63' : V (Proc.devRef .tc (![main_v61, main_v62, main_v63, main_v64] 2)) = val_main_v63 (F := F) := h63
  have h64' : V (Proc.devRef .tc (![main_v61, main_v62, main_v63, main_v64] 3)) = val_main_v64 (F := F) := h64
  after_results_simp
  rw [h0, h61', h62', h63', h64']
  rfl
theorem s4_keep_v14 : after ops4 V (Proc.devRef .tc main_v14) = V (Proc.devRef .tc main_v14) := by
  after_results_simp <;> rfl
theorem s4_keep_v29 : after ops4 V (Proc.devRef .tc main_v29) = V (Proc.devRef .tc main_v29) := by
  after_results_simp <;> rfl

theorem s5_v73 (x0 : (⟨S16x1024x32x32, .f32⟩ : BufTy).Contents (Elt F))
    (h14 : V (Proc.devRef .tc main_v14) = val_main_v14 (F := F)) (h29 : V (Proc.devRef .tc main_v29) = val_main_v29 (F := F))
    (h66 : V (Proc.devRef .tc main_v66) = val_main_v66 (F := F) x0) :
    after ops5 V (Proc.devRef .tc main_v73) = val_main_v73 (F := F) x0 := by
  after_results_simp
  rw [h14, h29, h66]
  rfl

theorem s6_v74 (x0 : (⟨S16x1024x32x32, .f32⟩ : BufTy).Contents (Elt F))
    (h73 : V (Proc.devRef .tc main_v73) = val_main_v73 (F := F) x0) :
    after ops6 V (Proc.devRef .tc main_v74) = val_main_v74 (F := F) x0 := by
  after_results_simp
  rw [h73]
  rfl

end Stages

/-- The whole list evaluated at the result buffer: chunk by chunk, each chunk read over an opaque valuation of
    which only the few buffers later chunks read are known. -/
theorem after_ops_v74 (V : Valuation τ sig (Elt F)) :
    after (ops1 ++ (ops2 ++ (ops3 ++ (ops4 ++ (ops5 ++ ops6))))) V (Proc.devRef .tc main_v74)
      = val_main_v74 (F := F) (V (Proc.devRef .tc main_arg0)) := by
  rw [after_append, after_append, after_append, after_append, after_append]
  have h0 := s1_v0 V
  have h14 := s1_v14 V
  have h15 := s1_v15 V
  generalize after ops1 V = W1 at h0 h14 h15 ⊢
  have k0 := (s2_keep_v0 W1).trans h0
  have k14 := (s2_keep_v14 W1).trans h14
  have k15 := (s2_keep_v15 W1).trans h15
  have h29 := s2_v29 W1
  have h30 := s2_v30 W1
  clear h0 h14 h15
  generalize after ops2 W1 = W2 at k0 k14 k15 h29 h30 ⊢
  have m0 := (s3_keep_v0 W2).trans k0
  have m14 := (s3_keep_v14 W2).trans k14
  have m29 := (s3_keep_v29 W2).trans h29
  have m61 := s3_v61 W2 k15
  have m62 := s3_v62 W2 h30
  have m63 := s3_v63 W2
  have m64 := s3_v64 W2
  clear k0 k14 k15 h29 h30
  generalize after ops3 W2 = W3 at m0 m14 m29 m61 m62 m63 m64 ⊢
  have n14 := (s4_keep_v14 W3).trans m14
  have n29 := (s4_keep_v29 W3).trans m29
  have n66 : after ops4 W3 (Proc.devRef .tc main_v66) = val_main_v66 (F := F) (V (Proc.devRef .tc main_arg0)) :=
    s4_v66 W3 _ m0 m61 m62 m63 m64
  clear m0 m14 m29 m61 m62 m63 m64
  generalize after ops4 W3 = W4 at n14 n29 n66 ⊢
  have p73 := s5_v73 W4 _ n14 n29 n66
  clear n14 n29 n66
  generalize after ops5 W4 = W5 at p73 ⊢
  exact s6_v74 W5 _ p73

/-- The operation list is the six chunks in order. -/
theorem ops_split : (ops : List (HloOp τ sig (Elt F))) = ops1 ++ (ops2 ++ (ops3 ++ (ops4 ++ (ops5 ++ ops6)))) := rfl

/-- On every device, for any float values, from any memory with zero counters: every weakly fair execution of
    @main terminates with the result at the reference's last stage of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = val_main_v74 (F := F) (m ((c.tc : Thread nD τ).loc main_arg0))
      ∧ r.2.mem ((c.tc : Thread nD τ).loc main_arg0) = m ((c.tc : Thread nD τ).loc main_arg0) :=
  (θ_run defs _ _).mono (fun _ h c =>
      ⟨(h c main_v74).trans ((congrArg (fun l => after l _ (Proc.devRef .tc main_v74)) ops_split).trans (after_ops_v74 _)),
        (h c main_arg0).trans (by after_results_simp <;> rfl)⟩)
    (run_seq scopedRefs_eq scopedSems_eq defs main (fun _ => ops) main_eq (fun _ => ops_sub) m ρ)

end Cert.ReferenceIdeal.RunP

end
-- ==== Proof.LibShiftIndex.lean ====
/-
  The integer arithmetic of a shifted, clamped index on 32-bit words.

  A gather that reads source position `p = a + i - 31` (`a < 63` an output position, `i < 32`) computes it as the
  word `(a - 31) + i`, tests `0 ≤ p` and `p < 32` for the validity bit, clamps `p` into [0, 31] by a signed max and
  min, and (as every index taken from an array is) adds 32 to a negative index before use; the gather itself then
  reads the word as a signed integer and clamps it into [0, 31] once more. All words here come from the finitely
  many pairs `(a, i)`, and the facts are checked on each pair:
    the validity bit is set exactly when `31 ≤ a + i < 63` (`validBit_iff`);
    inside that window the start position the gather uses is `a + i - 31` (`start_in_window`);
    an index `i < 32` used as it is gives start position `i` (`start_own`).
-/
import Idealize.ShloMosaic.PureOps.Ideal
import Idealize.ShloMosaic.Lib.Decide

set_option maxRecDepth 16384

noncomputable section

namespace Cert.ShiftIndex

open Idealize.ShloMosaic

/-- The shifted source position as a 32-bit word: `(a - 31) + i`. -/
def posWord (a i : Nat) : BitVec 32 :=
  IntOp.addi (IntOp.subi (BitVec.ofNat 32 a) 31#32) (BitVec.ofNat 32 i)

/-- The validity bit: `0 ≤ p` and `p < 32`, signed. -/
def validBit (p : BitVec 32) : BitVec 1 :=
  IntOp.andi (IntOp.cmpi .sge p 0#32) (IntOp.cmpi .slt p 32#32)

/-- The position clamped into [0, 31], signed. -/
def clampWord (p : BitVec 32) : BitVec 32 :=
  IntOp.minsi 31#32 (IntOp.maxsi 0#32 p)

/-- A negative index counted from the end (a clamped or a plain index is never negative, so this changes nothing
    here). -/
def wrapWord (p : BitVec 32) : BitVec 32 :=
  Scalar.select (IntOp.cmpi .slt p 0#32) (IntOp.addi p 32#32) p

/-- The validity bit is set exactly inside the window. -/
theorem validBit_iff : ∀ (a : Fin 63) (i : Fin 32),
    validBit (posWord a.val i.val) = 1#1 ↔ (31 ≤ a.val + i.val ∧ a.val + i.val < 63) := by
  decide +kernel

/-- Inside the window the gather's start position is `a + i - 31`. -/
theorem start_in_window : ∀ (a : Fin 63) (i : Fin 32), (31 ≤ a.val + i.val ∧ a.val + i.val < 63) →
    min (wrapWord (clampWord (posWord a.val i.val))).toInt.toNat (32 - 1) = a.val + i.val - 31 := by
  decide +kernel

/-- A plain index gives itself as start position. -/
theorem start_own : ∀ (i : Fin 32), min (wrapWord (BitVec.ofNat 32 i.val)).toInt.toNat (32 - 1) = i.val := by
  decide +kernel

/-- The conjunction of two bits is set exactly when both are. -/
theorem andi_eq_one_iff : ∀ v w : BitVec 1, IntOp.andi v w = 1#1 ↔ (v = 1#1 ∧ w = 1#1) := by
  decide

end Cert.ShiftIndex

end
-- ==== Proof.RefGather.lean ====
/-
  The reference's gather and the concatenation of its four index components, read at an index.

  The start indices have shape [63, 63, 32, 32, 4]: at output position `(a, c, i, j)` the four components are the
  start positions on the operand's four position axes. The gather keeps the batch coordinate (its one offset axis)
  and reads, on each position axis, the matching component as a signed integer clamped into [0, 31]
  (`gather_apply`). The index array is the concatenation along its last axis of four arrays of shape
  [63, 63, 32, 32, 1]; its component `k` at `(a, c, i, j)` is the `k`-th array at `(a, c, i, j, 0)`
  (`concat0` … `concat3`).
-/
import proofs.«124557_j29884382445645_1_alg».proof.Proof.Gen.ReferenceIdeal
import Idealize.ShloMosaic.Lib.ValueIdx

set_option maxRecDepth 16384

noncomputable section
namespace Cert.RefGather
open Idealize.ShloMosaic Idealize.ShloMosaic.ValueIdx Cert.ReferenceIdeal Cert.ReferenceIdeal.Gen

variable {α : Type}

local notation "gd" => gather_S16x32x32x32x32_S63x63x32x32x4_S16x63x63x32x32_0_1234_n_n_1234_4_161111

theorem sim_eq : (gd).startIndexMap = [1, 2, 3, 4] := rfl
theorem ob_eq : (gd).operandBatchingDims = [] := rfl
theorem skept_eq : (gd).sKept = [0] := by decide

theorem g0 (idx : IVec S63x63x32x32x4 32) (y : S16x63x63x32x32.Idx) :
    (gd).start y idx 0 + (gd).batchCoord y 0 + (gd).offCoord y 0 = (y 0).val := by
  have hs : (gd).start y idx 0 = 0 := by
    unfold GatherDims.start
    rw [dif_neg (by rw [sim_eq]; decide)]
  have hb : (gd).batchCoord y 0 = 0 := GatherDims.batchCoord_eq_zero _ _ _ (by rw [ob_eq]; exact List.not_mem_nil)
  have ho : (gd).offCoord y 0 = (y 0).val := by
    unfold GatherDims.offCoord
    rw [dif_pos (by rw [skept_eq]; decide)]
    exact congrArg (fun k => (y k).val) (by decide)
  omega

theorem g1 (idx : IVec S63x63x32x32x4 32) (y : S16x63x63x32x32.Idx) :
    (gd).start y idx 1 + (gd).batchCoord y 1 + (gd).offCoord y 1
      = min (idx (ix5 (y 1) (y 2) (y 3) (y 4) (0 : Fin 4))).toInt.toNat (32 - 1) := by
  have hb : (gd).batchCoord y 1 = 0 := GatherDims.batchCoord_eq_zero _ _ _ (by rw [ob_eq]; exact List.not_mem_nil)
  have ho : (gd).offCoord y 1 = 0 := GatherDims.offCoord_eq_zero _ _ _ (by rw [skept_eq]; decide)
  have hm : (1 : Fin 5) ∈ (gd).startIndexMap := by rw [sim_eq]; decide
  have hsi : (gd).siIdx y ⟨List.idxOf (1 : Fin 5) (gd).startIndexMap, List.idxOf_lt_length_iff.2 hm⟩
      = ix5 (y 1) (y 2) (y 3) (y 4) (0 : Fin 4) := by
    funext b; refine Fin.ext ?_
    match b with
    | ⟨0, _⟩ => rfl
    | ⟨1, _⟩ => rfl
    | ⟨2, _⟩ => rfl
    | ⟨3, _⟩ => rfl
    | ⟨4, _⟩ => rfl
  have hs : (gd).start y idx 1 = min (idx (ix5 (y 1) (y 2) (y 3) (y 4) (0 : Fin 4))).toInt.toNat (32 - 1) := by
    unfold GatherDims.start
    rw [dif_pos hm, hsi]
    rfl
  omega

theorem g2 (idx : IVec S63x63x32x32x4 32) (y : S16x63x63x32x32.Idx) :
    (gd).start y idx 2 + (gd).batchCoord y 2 + (gd).offCoord y 2
      = min (idx (ix5 (y 1) (y 2) (y 3) (y 4) (1 : Fin 4))).toInt.toNat (32 - 1) := by
  have hb : (gd).batchCoord y 2 = 0 := GatherDims.batchCoord_eq_zero _ _ _ (by rw [ob_eq]; exact List.not_mem_nil)
  have ho : (gd).offCoord y 2 = 0 := GatherDims.offCoord_eq_zero _ _ _ (by rw [skept_eq]; decide)
  have hm : (2 : Fin 5) ∈ (gd).startIndexMap := by rw [sim_eq]; decide
  have hsi : (gd).siIdx y ⟨List.idxOf (2 : Fin 5) (gd).startIndexMap, List.idxOf_lt_length_iff.2 hm⟩
      = ix5 (y 1) (y 2) (y 3) (y 4) (1 : Fin 4) := by
    funext b; refine Fin.ext ?_
    match b with
    | ⟨0, _⟩ => rfl
    | ⟨1, _⟩ => rfl
    | ⟨2, _⟩ => rfl
    | ⟨3, _⟩ => rfl
    | ⟨4, _⟩ => rfl
  have hs : (gd).start y idx 2 = min (idx (ix5 (y 1) (y 2) (y 3) (y 4) (1 : Fin 4))).toInt.toNat (32 - 1) := by
    unfold GatherDims.start
    rw [dif_pos hm, hsi]
    rfl
  omega

theorem g3 (idx : IVec S63x63x32x32x4 32) (y : S16x63x63x32x32.Idx) :
    (gd).start y idx 3 + (gd).batchCoord y 3 + (gd).offCoord y 3
      = min (idx (ix5 (y 1) (y 2) (y 3) (y 4) (2 : Fin 4))).toInt.toNat (32 - 1) := by
  have hb : (gd).batchCoord y 3 = 0 := GatherDims.batchCoord_eq_zero _ _ _ (by rw [ob_eq]; exact List.not_mem_nil)
  have ho : (gd).offCoord y 3 = 0 := GatherDims.offCoord_eq_zero _ _ _ (by rw [skept_eq]; decide)
  have hm : (3 : Fin 5) ∈ (gd).startIndexMap := by rw [sim_eq]; decide
  have hsi : (gd).siIdx y ⟨List.idxOf (3 : Fin 5) (gd).startIndexMap, List.idxOf_lt_length_iff.2 hm⟩
      = ix5 (y 1) (y 2) (y 3) (y 4) (2 : Fin 4) := by
    funext b; refine Fin.ext ?_
    match b with
    | ⟨0, _⟩ => rfl
    | ⟨1, _⟩ => rfl
    | ⟨2, _⟩ => rfl
    | ⟨3, _⟩ => rfl
    | ⟨4, _⟩ => rfl
  have hs : (gd).start y idx 3 = min (idx (ix5 (y 1) (y 2) (y 3) (y 4) (2 : Fin 4))).toInt.toNat (32 - 1) := by
    unfold GatherDims.start
    rw [dif_pos hm, hsi]
    rfl
  omega

theorem g4 (idx : IVec S63x63x32x32x4 32) (y : S16x63x63x32x32.Idx) :
    (gd).start y idx 4 + (gd).batchCoord y 4 + (gd).offCoord y 4
      = min (idx (ix5 (y 1) (y 2) (y 3) (y 4) (3 : Fin 4))).toInt.toNat (32 - 1) := by
  have hb : (gd).batchCoord y 4 = 0 := GatherDims.batchCoord_eq_zero _ _ _ (by rw [ob_eq]; exact List.not_mem_nil)
  have ho : (gd).offCoord y 4 = 0 := GatherDims.offCoord_eq_zero _ _ _ (by rw [skept_eq]; decide)
  have hm : (4 : Fin 5) ∈ (gd).startIndexMap := by rw [sim_eq]; decide
  have hsi : (gd).siIdx y ⟨List.idxOf (4 : Fin 5) (gd).startIndexMap, List.idxOf_lt_length_iff.2 hm⟩
      = ix5 (y 1) (y 2) (y 3) (y 4) (3 : Fin 4) := by
    funext b; refine Fin.ext ?_
    match b with
    | ⟨0, _⟩ => rfl
    | ⟨1, _⟩ => rfl
    | ⟨2, _⟩ => rfl
    | ⟨3, _⟩ => rfl
    | ⟨4, _⟩ => rfl
  have hs : (gd).start y idx 4 = min (idx (ix5 (y 1) (y 2) (y 3) (y 4) (3 : Fin 4))).toInt.toNat (32 - 1) := by
    unfold GatherDims.start
    rw [dif_pos hm, hsi]
    rfl
  omega

theorem concat0 (u0 u1 u2 u3 : S63x63x32x32x1.Idx → α) (a c : Fin 63) (i j : Fin 32) :
    concatenate S63x63x32x32x4 4 [⟨S63x63x32x32x1, u0⟩, ⟨S63x63x32x32x1, u1⟩, ⟨S63x63x32x32x1, u2⟩, ⟨S63x63x32x32x1, u3⟩]
      concatenates_S63x63x32x32x1_S63x63x32x32x1_S63x63x32x32x1_S63x63x32x32x1_S63x63x32x32x4_d4 (ix5 a c i j (0 : Fin 4))
      = u0 (ix5 a c i j (0 : Fin 1)) := by
  first
    | rfl
    | (show u0 _ = u0 _
       congr 1
       funext b
       match b with
       | ⟨0, _⟩ => rfl
       | ⟨1, _⟩ => rfl
       | ⟨2, _⟩ => rfl
       | ⟨3, _⟩ => rfl
       | ⟨4, _⟩ => rfl)

theorem concat1 (u0 u1 u2 u3 : S63x63x32x32x1.Idx → α) (a c : Fin 63) (i j : Fin 32) :
    concatenate S63x63x32x32x4 4 [⟨S63x63x32x32x1, u0⟩, ⟨S63x63x32x32x1, u1⟩, ⟨S63x63x32x32x1, u2⟩, ⟨S63x63x32x32x1, u3⟩]
      concatenates_S63x63x32x32x1_S63x63x32x32x1_S63x63x32x32x1_S63x63x32x32x1_S63x63x32x32x4_d4 (ix5 a c i j (1 : Fin 4))
      = u1 (ix5 a c i j (0 : Fin 1)) := by
  first
    | rfl
    | (show u1 _ = u1 _
       congr 1
       funext b
       match b with
       | ⟨0, _⟩ => rfl
       | ⟨1, _⟩ => rfl
       | ⟨2, _⟩ => rfl
       | ⟨3, _⟩ => rfl
       | ⟨4, _⟩ => rfl)

theorem concat2 (u0 u1 u2 u3 : S63x63x32x32x1.Idx → α) (a c : Fin 63) (i j : Fin 32) :
    concatenate S63x63x32x32x4 4 [⟨S63x63x32x32x1, u0⟩, ⟨S63x63x32x32x1, u1⟩, ⟨S63x63x32x32x1, u2⟩, ⟨S63x63x32x32x1, u3⟩]
      concatenates_S63x63x32x32x1_S63x63x32x32x1_S63x63x32x32x1_S63x63x32x32x1_S63x63x32x32x4_d4 (ix5 a c i j (2 : Fin 4))
      = u2 (ix5 a c i j (0 : Fin 1)) := by
  first
    | rfl
    | (show u2 _ = u2 _
       congr 1
       funext b
       match b with
       | ⟨0, _⟩ => rfl
       | ⟨1, _⟩ => rfl
       | ⟨2, _⟩ => rfl
       | ⟨3, _⟩ => rfl
       | ⟨4, _⟩ => rfl)

theorem concat3 (u0 u1 u2 u3 : S63x63x32x32x1.Idx → α) (a c : Fin 63) (i j : Fin 32) :
    concatenate S63x63x32x32x4 4 [⟨S63x63x32x32x1, u0⟩, ⟨S63x63x32x32x1, u1⟩, ⟨S63x63x32x32x1, u2⟩, ⟨S63x63x32x32x1, u3⟩]
      concatenates_S63x63x32x32x1_S63x63x32x32x1_S63x63x32x32x1_S63x63x32x32x1_S63x63x32x32x4_d4 (ix5 a c i j (3 : Fin 4))
      = u3 (ix5 a c i j (0 : Fin 1)) := by
  first
    | rfl
    | (show u3 _ = u3 _
       congr 1
       funext b
       match b with
       | ⟨0, _⟩ => rfl
       | ⟨1, _⟩ => rfl
       | ⟨2, _⟩ => rfl
       | ⟨3, _⟩ => rfl
       | ⟨4, _⟩ => rfl)

/-- The gather of this program read at an index: the batch coordinate is kept, and each of the four position
    coordinates is the matching component of the start index, read signed and clamped into [0, 31]. -/
theorem gather_apply (X : S16x32x32x32x32.Idx → α) (idx : IVec S63x63x32x32x4 32) (y : S16x63x63x32x32.Idx) :
    Host.gather (gd) X idx y
      = X (ix5 (y 0)
          (⟨min (idx (ix5 (y 1) (y 2) (y 3) (y 4) (0 : Fin 4))).toInt.toNat (32 - 1), by omega⟩ : Fin 32)
          (⟨min (idx (ix5 (y 1) (y 2) (y 3) (y 4) (1 : Fin 4))).toInt.toNat (32 - 1), by omega⟩ : Fin 32)
          (⟨min (idx (ix5 (y 1) (y 2) (y 3) (y 4) (2 : Fin 4))).toInt.toNat (32 - 1), by omega⟩ : Fin 32)
          (⟨min (idx (ix5 (y 1) (y 2) (y 3) (y 4) (3 : Fin 4))).toInt.toNat (32 - 1), by omega⟩ : Fin 32)) := by
  unfold Host.gather
  congr 1
  funext a
  refine Fin.ext ?_
  match a with
  | ⟨0, _⟩ => exact g0 idx y
  | ⟨1, _⟩ => exact g1 idx y
  | ⟨2, _⟩ => exact g2 idx y
  | ⟨3, _⟩ => exact g3 idx y
  | ⟨4, _⟩ => exact g4 idx y

end Cert.RefGather
end
-- ==== Proof.RefShift.lean ====
/-
  The reference computes the shift.

  At output index `(b, a, c, i, j)` the reference selects, by a validity bit, between a gathered entry of the
  argument (split as X[b, p, q, i, j]) and zero. The bit is the conjunction of the row bit of `(a, i)` and the column
  bit of `(c, j)`, each set exactly inside its window (`31 ≤ a + i < 63`, `31 ≤ c + j < 63`). The gathered entry is
  X at batch `b` and the four start positions the index array holds at `(a, c, i, j)`: the clamped shifted row and
  column positions and the plain `i` and `j`; inside both windows these are `a + i - 31`, `c + j - 31`, `i`, `j`.
  So inside both windows the reference reads X[b, a + i - 31, c + j - 31, i, j], and outside either it gives zero:
  the shift of the specification (`ref_eq`).
-/
import proofs.«124557_j29884382445645_1_alg».proof.Proof.RefRead
import proofs.«124557_j29884382445645_1_alg».proof.Proof.ShiftSpec
import proofs.«124557_j29884382445645_1_alg».proof.Proof.LibShiftIndex
import proofs.«124557_j29884382445645_1_alg».proof.Proof.RefGather
import Idealize.ShloMosaic.Lib.ValueIdx

set_option maxRecDepth 16384

noncomputable section

namespace Cert.RefShift

open Idealize.ShloMosaic Idealize.ShloMosaic.ValueIdx
open Cert.ReferenceIdeal Cert.ReferenceIdeal.Gen Cert.ReferenceIdeal.ReadP
open Cert.ShiftSpec Cert.ShiftIndex Cert.RefGather

variable {F : FTy → Type} [FloatOps F]

/-! ## The row and column positions, their validity bits and their clamped values -/

theorem row_pos (a : Fin 63) (i : Fin 32) : val_main_v9 (F := F) (ix2 a i) = posWord a.val i.val := by
  rw [val_main_v9_apply, val_main_v7_apply, val_main_v6_apply, val_main_v2_apply, val_main_v1_apply,
    val_main_v5_apply, val_main_c_apply, val_main_v8_apply, val_main_v4_apply, val_main_v3_apply]
  rfl

theorem col_pos (c : Fin 63) (j : Fin 32) : val_main_v24 (F := F) (ix2 c j) = posWord c.val j.val := by
  rw [val_main_v24_apply, val_main_v22_apply, val_main_v21_apply, val_main_v17_apply, val_main_v16_apply,
    val_main_v20_apply, val_main_c_4_apply, val_main_v23_apply, val_main_v19_apply, val_main_v18_apply]
  rfl

theorem row_valid (a : Fin 63) (i : Fin 32) : val_main_v14 (F := F) (ix2 a i) = validBit (posWord a.val i.val) := by
  rw [val_main_v14_apply, val_main_v11_apply, val_main_v13_apply, val_main_v10_apply, val_main_c_0_apply,
    val_main_v12_apply, val_main_c_1_apply, row_pos]
  rfl

theorem col_valid (c : Fin 63) (j : Fin 32) : val_main_v29 (F := F) (ix2 c j) = validBit (posWord c.val j.val) := by
  rw [val_main_v29_apply, val_main_v26_apply, val_main_v28_apply, val_main_v25_apply, val_main_c_5_apply,
    val_main_v27_apply, val_main_c_6_apply, col_pos]
  rfl

theorem row_clamp (a : Fin 63) (i : Fin 32) : val_main_v15 (F := F) (ix2 a i) = clampWord (posWord a.val i.val) := by
  rw [val_main_v15_apply, val_main_call0_v4_apply, val_main_call0_v3_apply, val_main_c_3_apply,
    val_main_call0_v2_apply, val_main_call0_v1_apply, val_main_call0_v0_apply, val_main_c_2_apply, row_pos]
  rfl

theorem col_clamp (c : Fin 63) (j : Fin 32) : val_main_v30 (F := F) (ix2 c j) = clampWord (posWord c.val j.val) := by
  rw [val_main_v30_apply, val_main_call1_v4_apply, val_main_call1_v3_apply, val_main_c_8_apply,
    val_main_call1_v2_apply, val_main_call1_v1_apply, val_main_call1_v0_apply, val_main_c_7_apply, col_pos]
  rfl

/-! ## The four components of the start index at `(a, c, i, j)` -/

theorem comp_row (a c : Fin 63) (i j : Fin 32) :
    val_main_v61 (F := F) (ix5 a c i j (0 : Fin 1)) = wrapWord (clampWord (posWord a.val i.val)) := by
  have e1 : idx_main_v57 (idx_main_v61 (ix5 a c i j (0 : Fin 1))) = ix4 a (0 : Fin 1) i (0 : Fin 1) :=
    funext fun d => match d with | ⟨0, _⟩ => rfl | ⟨1, _⟩ => rfl | ⟨2, _⟩ => rfl | ⟨3, _⟩ => rfl
  have e2 : idx_main_v31 (ix4 a (0 : Fin 1) i (0 : Fin 1)) = ix2 a i :=
    funext fun d => match d with | ⟨0, _⟩ => rfl | ⟨1, _⟩ => rfl
  rw [val_main_v61_apply, val_main_v57_apply, e1, val_main_v41_apply, val_main_v38_apply, val_main_v40_apply,
    val_main_v31_apply, e2, val_main_v37_apply, val_main_c_9_apply, val_main_v39_apply, val_main_c_10_apply, row_clamp]
  rfl

theorem comp_col (a c : Fin 63) (i j : Fin 32) :
    val_main_v62 (F := F) (ix5 a c i j (0 : Fin 1)) = wrapWord (clampWord (posWord c.val j.val)) := by
  have e1 : idx_main_v58 (idx_main_v62 (ix5 a c i j (0 : Fin 1))) = ix4 (0 : Fin 1) c (0 : Fin 1) j :=
    funext fun d => match d with | ⟨0, _⟩ => rfl | ⟨1, _⟩ => rfl | ⟨2, _⟩ => rfl | ⟨3, _⟩ => rfl
  have e2 : idx_main_v32 (ix4 (0 : Fin 1) c (0 : Fin 1) j) = ix2 c j :=
    funext fun d => match d with | ⟨0, _⟩ => rfl | ⟨1, _⟩ => rfl
  rw [val_main_v62_apply, val_main_v58_apply, e1, val_main_v46_apply, val_main_v43_apply, val_main_v45_apply,
    val_main_v32_apply, e2, val_main_v42_apply, val_main_c_11_apply, val_main_v44_apply, val_main_c_12_apply, col_clamp]
  rfl

theorem comp_i (a c : Fin 63) (i j : Fin 32) :
    val_main_v63 (F := F) (ix5 a c i j (0 : Fin 1)) = wrapWord (BitVec.ofNat 32 i.val) := by
  rw [val_main_v63_apply, val_main_v59_apply, val_main_v51_apply, val_main_v48_apply, val_main_v50_apply,
    val_main_v34_apply, val_main_v33_apply, val_main_v47_apply, val_main_c_13_apply, val_main_v49_apply, val_main_c_14_apply]
  rfl

theorem comp_j (a c : Fin 63) (i j : Fin 32) :
    val_main_v64 (F := F) (ix5 a c i j (0 : Fin 1)) = wrapWord (BitVec.ofNat 32 j.val) := by
  rw [val_main_v64_apply, val_main_v60_apply, val_main_v56_apply, val_main_v53_apply, val_main_v55_apply,
    val_main_v36_apply, val_main_v35_apply, val_main_v52_apply, val_main_c_15_apply, val_main_v54_apply, val_main_c_16_apply]
  rfl

theorem idx0 (a c : Fin 63) (i j : Fin 32) :
    val_main_v65 (F := F) (ix5 a c i j (0 : Fin 4)) = wrapWord (clampWord (posWord a.val i.val)) := by
  unfold val_main_v65; rw [concat0, comp_row]
theorem idx1 (a c : Fin 63) (i j : Fin 32) :
    val_main_v65 (F := F) (ix5 a c i j (1 : Fin 4)) = wrapWord (clampWord (posWord c.val j.val)) := by
  unfold val_main_v65; rw [concat1, comp_col]
theorem idx2 (a c : Fin 63) (i j : Fin 32) :
    val_main_v65 (F := F) (ix5 a c i j (2 : Fin 4)) = wrapWord (BitVec.ofNat 32 i.val) := by
  unfold val_main_v65; rw [concat2, comp_i]
theorem idx3 (a c : Fin 63) (i j : Fin 32) :
    val_main_v65 (F := F) (ix5 a c i j (3 : Fin 4)) = wrapWord (BitVec.ofNat 32 j.val) := by
  unfold val_main_v65; rw [concat3, comp_j]

/-! ## The validity bit and the fill value at `(b, a, c, i, j)` -/

theorem mask_eq (b : Fin 16) (a c : Fin 63) (i j : Fin 32) :
    val_main_call2_v0 (F := F) (ix5 b a c i j)
      = IntOp.andi (validBit (posWord a.val i.val)) (validBit (posWord c.val j.val)) := by
  have e1 : idx_main_v67 (idx_main_v69 (idx_main_v72 (idx_main_call2_v0 (ix5 b a c i j)))) = ix2 a i :=
    funext fun d => match d with | ⟨0, _⟩ => rfl | ⟨1, _⟩ => rfl
  have e2 : idx_main_v68 (idx_main_v70 (idx_main_v72 (idx_main_call2_v0 (ix5 b a c i j)))) = ix2 c j :=
    funext fun d => match d with | ⟨0, _⟩ => rfl | ⟨1, _⟩ => rfl
  rw [val_main_call2_v0_apply, val_main_v72_apply, val_main_v71_apply, val_main_v69_apply, val_main_v67_apply, e1,
    val_main_v70_apply, val_main_v68_apply, e2, row_valid, col_valid]

theorem fill_eq (y : S16x63x63x32x32.Idx) :
    val_main_call2_v1 (F := F) y = FloatOps.ofBits .f32 0x00000000#32 := by
  rw [val_main_call2_v1_apply, val_main_cst_apply]

/-! ## The reference's result before its last reshape -/

theorem ref_at (x0 : (⟨S16x1024x32x32, .f32⟩ : BufTy).Contents (Elt F)) (b : Fin 16) (a c : Fin 63) (i j : Fin 32) :
    val_main_v73 (F := F) x0 (ix5 b a c i j)
      = shiftAt (FloatOps.ofBits (F := F) .f32 0x00000000#32) (val_main_v0 (F := F) x0) b a c i j := by
  rw [val_main_v73_apply, mask_eq, fill_eq]
  unfold val_main_v66
  rw [gather_apply]
  show Scalar.select _ (val_main_v0 (F := F) x0 (ix5 b
      (⟨min (val_main_v65 (F := F) (ix5 a c i j (0 : Fin 4))).toInt.toNat (32 - 1), _⟩ : Fin 32)
      (⟨min (val_main_v65 (F := F) (ix5 a c i j (1 : Fin 4))).toInt.toNat (32 - 1), _⟩ : Fin 32)
      (⟨min (val_main_v65 (F := F) (ix5 a c i j (2 : Fin 4))).toInt.toNat (32 - 1), _⟩ : Fin 32)
      (⟨min (val_main_v65 (F := F) (ix5 a c i j (3 : Fin 4))).toInt.toNat (32 - 1), _⟩ : Fin 32))) _ = _
  unfold shiftAt
  by_cases h : (31 ≤ a.val + i.val ∧ a.val + i.val < 63) ∧ (31 ≤ c.val + j.val ∧ c.val + j.val < 63)
  · rw [dif_pos h]
    have hm : IntOp.andi (validBit (posWord a.val i.val)) (validBit (posWord c.val j.val)) = 1#1 :=
      (andi_eq_one_iff _ _).mpr ⟨(validBit_iff a i).mpr h.1, (validBit_iff c j).mpr h.2⟩
    rw [hm, select_one]
    refine congrArg (val_main_v0 (F := F) x0) (funext fun d => ?_)
    match d with
    | ⟨0, _⟩ => rfl
    | ⟨1, _⟩ => exact Fin.ext (by show min (val_main_v65 (F := F) (ix5 a c i j (0 : Fin 4))).toInt.toNat (32 - 1) = a.val + i.val - 31; rw [idx0]; exact start_in_window a i h.1)
    | ⟨2, _⟩ => exact Fin.ext (by show min (val_main_v65 (F := F) (ix5 a c i j (1 : Fin 4))).toInt.toNat (32 - 1) = c.val + j.val - 31; rw [idx1]; exact start_in_window c j h.2)
    | ⟨3, _⟩ => exact Fin.ext (by show min (val_main_v65 (F := F) (ix5 a c i j (2 : Fin 4))).toInt.toNat (32 - 1) = i.val; rw [idx2]; exact start_own i)
    | ⟨4, _⟩ => exact Fin.ext (by show min (val_main_v65 (F := F) (ix5 a c i j (3 : Fin 4))).toInt.toNat (32 - 1) = j.val; rw [idx3]; exact start_own j)
  · rw [dif_neg h]
    have hm : ¬ IntOp.andi (validBit (posWord a.val i.val)) (validBit (posWord c.val j.val)) = 1#1 := fun e =>
      h ⟨(validBit_iff a i).mp ((andi_eq_one_iff _ _).mp e).1, (validBit_iff c j).mp ((andi_eq_one_iff _ _).mp e).2⟩
    rw [eq_zero_of_ne_one hm, select_zero]

/-- The reference's result before its last reshape is the shift of the argument with its long axis split. -/
theorem ref_eq (x0 : (⟨S16x1024x32x32, .f32⟩ : BufTy).Contents (Elt F)) :
    val_main_v73 (F := F) x0
      = shifted (FloatOps.ofBits (F := F) .f32 0x00000000#32) (val_main_v0 (F := F) x0) := by
  funext y
  exact (congrArg (val_main_v73 (F := F) x0) (eq_ix5 y)).trans (ref_at (F := F) x0 (y 0) (y 1) (y 2) (y 3) (y 4))

end Cert.RefShift

end
-- ==== Proof.lean ====
/-
  Both programs compute one array from the argument, so every claim follows from reading the two runs.

  Split the argument's axis of length 1024 as p * 32 + q and the result's axis of length 3969 as a * 63 + c. The
  result is out[b, a, c, i, j] = X[b, a + i - 31, c + j - 31, i, j] where 31 ≤ a + i < 63 and 31 ≤ c + j < 63, and
  zero elsewhere (Proof/ShiftSpec.lean). The kernel gets there by a zero fill and 32 shifted slice stores into a
  scratch (rows), then a zero fill and 32 shifted slice stores into the output block (columns), one batch entry per
  grid point (Proof/KernelScratch.lean, KernelBlock.lean, KernelArray.lean); the reference by a gather at clamped
  indices under a validity mask (Proof/RefRun.lean for its run, Proof/RefShift.lean for its value). No arithmetic is done on the entries, so the precondition is
  never opened. The frames are the programs' runs with the results dropped; the idealization rewrote nothing.
-/
import proofs.«124557_j29884382445645_1_alg».proof.Defs
import proofs.«124557_j29884382445645_1_alg».proof.Proof.Gen.Kernel
import proofs.«124557_j29884382445645_1_alg».proof.Proof.Gen.Kernel.Frame
import proofs.«124557_j29884382445645_1_alg».proof.Proof.Gen.KernelIdeal
import proofs.«124557_j29884382445645_1_alg».proof.Proof.Gen.KernelIdeal.Frame
import proofs.«124557_j29884382445645_1_alg».proof.Proof.Gen.ReferenceIdeal
import proofs.«124557_j29884382445645_1_alg».proof.Proof.Gen.Pre_finite_inputs
import proofs.«124557_j29884382445645_1_alg».proof.Proof.KernelArray
import proofs.«124557_j29884382445645_1_alg».proof.Proof.RefRun
import proofs.«124557_j29884382445645_1_alg».proof.Proof.RefShift

noncomputable section

namespace Cert.Proof

open Idealize.ShloMosaic Idealize.ShloMosaic.TcCoe Idealize.SL.Sem

/-- The kernel as printed runs and leaves its argument as it was. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both runs end with the result at the shift of the argument (split, shifted, merged again). -/
theorem algebraic : Cert.algebraic_KernelIdeal_ReferenceIdeal := by
  intro m ρ m' ρ' _ hagree
  refine ⟨_, Cert.KernelShift.kernel_run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [hagree c]
  unfold Cert.ReferenceIdeal.ReadP.val_main_v74
  rw [Cert.RefShift.ref_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
